-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  main_v53

def fn_part2 {F : FTy → Type} [FloatOps F] (main_arg8 : FVec F S128x256 .f32) (main_arg9 : FVec F S128 .f32) (main_arg10 : FVec F S128x256 .f32) (main_arg11 : FVec F S128x256 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_v48 main_v49 main_v50

def fn_part1 {F : FTy → Type} [FloatOps F] (main_arg5 : FVec F S256x256 .f32) (main_arg6 : FVec F S256 .f32) (main_arg7 : FVec F S256x256 .f32) (main_arg8 : FVec F S128x256 .f32) (main_arg9 : FVec F S128 .f32) (main_arg10 : FVec F S128x256 .f32) (main_arg11 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) (main_arg8 : FVec F S128x256 .f32) (main_arg9 : FVec F S128 .f32) (main_arg10 : FVec F S128x256 .f32) (main_arg11 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 74
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S128x256, .f32⟩
  | .hbm, ⟨9, _⟩ => ⟨S128, .f32⟩
  | .hbm, ⟨10, _⟩ => ⟨S128x256, .f32⟩
  | .hbm, ⟨11, _⟩ => ⟨S128x256, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S1x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S_, .f32⟩
  | .hbm, ⟨69, _⟩ => ⟨S50000x256, .f32⟩
  | .hbm, ⟨70, _⟩ => ⟨S800000x1, .i32⟩
  | .hbm, ⟨71, _⟩ => ⟨S50000x256, .f32⟩
  | .hbm, ⟨72, _⟩ => ⟨S1x128, .f32⟩
  | .hbm, ⟨73, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S256x128, .f32⟩
  | .local _ .vmem, ⟨7, _⟩ => ⟨S1x256, .f32⟩
  | .local _ .vmem, ⟨8, _⟩ => ⟨S256x128, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x1, .f32⟩
  | .local _ .vmem, ⟨27, _⟩ => ⟨S2000x1, .f32⟩
  | .local _ .vmem, ⟨28, _⟩ => ⟨S128x256, .f32⟩
  | .local _ .vmem, ⟨29, _⟩ => ⟨S1x128, .f32⟩
  | .local _ .vmem, ⟨30, _⟩ => ⟨S128x256, .f32⟩
  | .local _ .vmem, ⟨31, _⟩ => ⟨S128x256, .f32⟩
  | .local _ .vmem, ⟨32, _⟩ => ⟨S2000x128, .f32⟩
  | .local _ .vmem, ⟨33, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  broadcasts_S2000x1_S2000x256 : S2000x1.Broadcasts S2000x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  shapeCasts_S128_S1x128 : S128.ShapeCasts S1x128
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x256.size a ≤ S128x256.size a
  hwx2_6 : ∀ i : grid2.Coords, EltTy.bits .f32 = 32 ∨ (Rect.block (s := S128x256) S128x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S128x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v48) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S128x256, .f32⟩
  | .hbm, ⟨9, _⟩ => ⟨S128, .f32⟩
  | .hbm, ⟨10, _⟩ => ⟨S128x256, .f32⟩
  | .hbm, ⟨11, _⟩ => ⟨S128x256, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S128x256, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S128x256, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S50000x256, .f32⟩
  | .hbm, ⟨51, _⟩ => ⟨S50000x256, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x256, .f32⟩
  | .hbm, ⟨76, _⟩ => ⟨S50000x256, .f32⟩
  | .hbm, ⟨77, _⟩ => ⟨S256x256, .f32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S256x256, .f32⟩
  | .hbm, ⟨83, _⟩ => ⟨S50000x256, .f32⟩
  | .hbm, ⟨84, _⟩ => ⟨S50000x256, .f32⟩
  | .hbm, ⟨85, _⟩ => ⟨S50000x256, .f32⟩
  | .hbm, ⟨86, _⟩ => ⟨S_, .f32⟩
  | .hbm, ⟨87, _⟩ => ⟨S50000x256, .f32⟩
  | .hbm, ⟨88, _⟩ => ⟨S50000x256, .f32⟩
  | .hbm, ⟨89, _⟩ => ⟨S256x128, .f32⟩
  | .hbm, ⟨90, _⟩ => ⟨S50000x128, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x256, .f32⟩
  | .hbm, ⟨100, _⟩ => ⟨S_, .f32⟩
  | .hbm, ⟨101, _⟩ => ⟨S50000x256, .f32⟩
  | .hbm, ⟨102, _⟩ => ⟨S800000x1, .i32⟩
  | .hbm, ⟨103, _⟩ => ⟨S50000x256, .f32⟩
  | .hbm, ⟨104, _⟩ => ⟨S_, .f32⟩
  | .hbm, ⟨105, _⟩ => ⟨S800000, .f32⟩
  | .hbm, ⟨106, _⟩ => ⟨S_, .f32⟩
  | .hbm, ⟨107, _⟩ => ⟨S50000, .f32⟩
  | .hbm, ⟨108, _⟩ => ⟨S800000x1, .i32⟩
  | .hbm, ⟨109, _⟩ => ⟨S50000, .f32⟩
  | .hbm, ⟨110, _⟩ => ⟨S_, .f32⟩
  | .hbm, ⟨111, _⟩ => ⟨S50000, .f32⟩
  | .hbm, ⟨112, _⟩ => ⟨S50000, .f32⟩
  | .hbm, ⟨113, _⟩ => ⟨S50000x1, .f32⟩
  | .hbm, ⟨114, _⟩ => ⟨S50000x256, .f32⟩
  | .hbm, ⟨115, _⟩ => ⟨S50000x256, .f32⟩
  | .hbm, ⟨116, _⟩ => ⟨S256x128, .f32⟩
  | .hbm, ⟨117, _⟩ => ⟨S50000x128, .f32⟩
  | .hbm, ⟨118, _⟩ => ⟨S1x128, .f32⟩
  | .hbm, ⟨119, _⟩ => ⟨S50000x128, .f32⟩
  | .hbm, ⟨120, _⟩ => ⟨S50000x128, .f32⟩
  | .hbm, ⟨121, _⟩ => ⟨S256x128, .f32⟩
  | .hbm, ⟨122, _⟩ => ⟨S50000x128, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call1_cst : Ref sig .tc := ⟨.hbm, 86, rfl⟩
abbrev main_call1_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_c_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_12 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_13 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run, read at EVERY buffer. At the compiled mesh, from any memory with zero counters, every weakly
  fair execution of the program on the TensorCores terminates, nothing faulting, and every unscoped buffer ends at the LAST
  BOUNDARY'S CONTENTS — the fold, from the launch memory, of the three stretches of host operations and the three regions'
  write-backs (`run_boundary`). Two readings of it: the result buffer ends at that fold's value there, and each argument
  array ends as launched, since no host operation and no region writes one (`run_named`).

  The program is run as its six segments (a host segment per stretch, a region per kernel call) by the launch theorem for
  several regions: the first thread state holds every unscoped buffer at the launch memory, the last holds them at the last
  boundary's contents, and the final state is read against that last thread state buffer by buffer.
-/
import proofs.«111636_j33122787786831_1_alg».proof.Proof.KernelIdealFrameP
import Idealize.ShloMosaic.PureOps.Ideal

set_option maxRecDepth 16384

noncomputable section

namespace Cert.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding plain
-- definitions in a metavariable's type
set_option backward.isDefEq.respectTransparency.types false in
/-- Every unscoped buffer ends at the last boundary's contents. -/
theorem run_boundary : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The result buffer ends at the last boundary's contents there; every argument array ends as launched. -/
theorem run_named : θ_run defs (onTc (τ := τ) (main (F := Ideal))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v48 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c)⟩)
    (run_boundary m ρ)

end Cert.Sage

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.Layer.lean ====
/-
  One graph-convolution layer with mean aggregation, as ONE function of its operand arrays, entry by entry over the
  extended reals. For node features `x`, neighbour sums `S`, one scale factor per node `q` (the reciprocal of the
  clamped in-degree), weights `Wl`, `Wr` (used transposed) and a bias row `b`, entry `(n, j)` of the layer before its
  activation is

      (∑ k, (S (n, k) * q n) * Wl (j, k)) + b j + ∑ k, x (n, k) * Wr (j, k).

  The three layers of the network differ only in what follows: a clamp below at zero; the input added back, then the clamp;
  a second product of the input (a projection) added. Every entry depends on ONE row of `x`, `S` and `q`, so a block of
  rows of a layer's result is the layer of that block of rows (`conv_rows`): what tiling the node axis does.
  Last, the one law that joins a division to a multiplication by a reciprocal: for a divisor that is not zero,
  `s / d = s * (1 / d)` on all the extended reals, infinities included.
-/
import proofs.«111636_j33122787786831_1_alg».proof.Proof.LibMatProd

noncomputable section

open scoped BigOperators

namespace Cert.Sage

open Idealize.ShloMosaic Idealize.ShloMosaic.ValueIdx Cert.MatProd

/-- A matrix of extended reals. -/
abbrev Mat (a b : Nat) : Type := (⟨2, ![a, b]⟩ : Shape).Idx → EReal

variable {N Din Dout : Nat}

/-- A matrix read transposed. -/
def tr {a b : Nat} (W : Mat a b) : Mat b a := fun i => W (ix2 (i 1) (i 0))

/-- Each row multiplied by that row's factor. -/
def scaleRows (S : Mat N Din) (q : Mat N 1) : Mat N Din := fun i => S i * q (ix2 (i 0) 0)

/-- The layer before its activation. -/
def conv (x S : Mat N Din) (q : Mat N 1) (Wl : Mat Dout Din) (b : Mat 1 Dout) (Wr : Mat Dout Din) : Mat N Dout :=
  fun i => prod (scaleRows S q) (tr Wl) i + b (ix2 0 (i 1)) + prod x (tr Wr) i

/-- The first layer: clamped below at zero (the zero word read as an extended real). -/
def layerRelu (x S : Mat N Din) (q : Mat N 1) (Wl : Mat Dout Din) (b : Mat 1 Dout) (Wr : Mat Dout Din) : Mat N Dout :=
  fun i => max (conv x S q Wl b Wr i) (Ideal.ofBits .f32 0x00000000#32)

/-- The middle layer: the input added back, then the clamp. -/
def layerResRelu (x S : Mat N Din) (q : Mat N 1) (Wl : Mat Din Din) (b : Mat 1 Din) (Wr : Mat Din Din) : Mat N Din :=
  fun i => max (conv x S q Wl b Wr i + x i) (Ideal.ofBits .f32 0x00000000#32)

/-- The last layer: a projection of the input added, no clamp. -/
def layerProj (x S : Mat N Din) (q : Mat N 1) (Wl : Mat Dout Din) (b : Mat 1 Dout) (Wr Wp : Mat Dout Din) : Mat N Dout :=
  fun i => conv x S q Wl b Wr i + prod x (tr Wp) i

/-- Entry `(p, j)` of the layer of a BLOCK of rows is entry `(r, j)` of the layer of the whole arrays, when row `p` of
    each block is row `r` of its array. -/
theorem conv_rows {N' : Nat} (x S : Mat N Din) (q : Mat N 1) (Wl : Mat Dout Din) (b : Mat 1 Dout) (Wr : Mat Dout Din)
    (x' S' : Mat N' Din) (q' : Mat N' 1) (p : Fin N') (r : Fin N) (j : Fin Dout)
    (hx : ∀ k : Fin Din, x' (ix2 p k) = x (ix2 r k)) (hs : ∀ k : Fin Din, S' (ix2 p k) = S (ix2 r k))
    (hq : q' (ix2 p 0) = q (ix2 r 0)) :
    conv x' S' q' Wl b Wr (ix2 p j) = conv x S q Wl b Wr (ix2 r j) := by
  show prod (scaleRows S' q') (tr Wl) (ix2 p j) + b (ix2 0 j) + prod x' (tr Wr) (ix2 p j)
    = prod (scaleRows S q) (tr Wl) (ix2 r j) + b (ix2 0 j) + prod x (tr Wr) (ix2 r j)
  rw [prod_block_eq (scaleRows S q) (tr Wl) (scaleRows S' q') (tr Wl) p j (ix2 r j)
      (fun k => by show S' (ix2 p k) * q' (ix2 p 0) = S (ix2 r k) * q (ix2 r 0); rw [hs k, hq]) (fun _ => rfl),
    prod_block_eq x (tr Wr) x' (tr Wr) p j (ix2 r j) hx (fun _ => rfl)]

/-- The same for a product alone. -/
theorem prod_rows {N' K M : Nat} (x : Mat N K) (W : Mat K M) (x' : Mat N' K) (p : Fin N') (r : Fin N) (j : Fin M)
    (hx : ∀ k : Fin K, x' (ix2 p k) = x (ix2 r k)) : prod x' W (ix2 p j) = prod x W (ix2 r j) :=
  prod_block_eq x W x' W p j (ix2 r j) hx (fun _ => rfl)

/-- Dividing by a divisor that is not zero is multiplying by its reciprocal, on all the extended reals. -/
theorem div_eq_mul_one_div (s d : EReal) (hd : d ≠ 0) : Ideal.div s d = s * Ideal.div 1 d := by
  unfold Ideal.div
  rw [if_neg hd, if_neg hd, one_mul]

/-- A number clamped below at one is not zero. -/
theorem max_one_ne_zero (d : EReal) : max d 1 ≠ 0 := by
  intro h
  have h1 : (1 : EReal) ≤ max d 1 := le_max_right d 1
  rw [h] at h1
  exact absurd h1 (by norm_num)

end Cert.Sage

end
-- ==== Proof.Net.lean ====
/-
  The network as ONE function of its twelve argument arrays, over the extended reals.

  The irregular part is the same in both programs and is carried here as named functions that are never opened: from the
  edge list, the source node of every edge (a negative index counted from the end) and its destination node as columns
  of indices; `agg` gathers the rows of a feature array at the source nodes and adds them up at the destination nodes (the
  sum over a node's incoming edges); `degClamped` adds up a one per edge at the destination nodes (the in-degree) and
  clamps it below at one. `invDeg` is the column of reciprocals `1 / degClamped`, and `biasRow` lays a bias vector out
  as a row. The three layers (Layer.lean) are composed: each takes the previous layer's result as its node features.

  Two layout facts: a vector laid out as a column, read at row `n`, is the vector at `n`; laid out as a row, read at
  column `j`, the vector at `j`.
-/
import proofs.«111636_j33122787786831_1_alg».proof.KernelIdeal
import proofs.«111636_j33122787786831_1_alg».proof.Proof.Layer
import Idealize.ShloMosaic.Lib.Pipeline.Value
import Idealize.ShloMosaic.Lib.ValueLayout

noncomputable section

namespace Cert.Sage

open Idealize.ShloMosaic Idealize.ShloMosaic.ValueIdx Cert.KernelIdeal

variable [Cert.KernelIdeal.Facts]
open Cert.KernelIdeal.Facts₀ Cert.KernelIdeal.Facts

/-- The edge list: two rows of node indices. -/
abbrev Edges : Type := (⟨S2x800000, .i32⟩ : BufTy).Contents (Elt Ideal)

/-- Row 0 of the edge list: every edge's source node. -/
def srcIdx (ei : Edges) : (⟨S800000, .i32⟩ : BufTy).Contents (Elt Ideal) :=
  shapeCast S800000 (extractStridedSlice S1x800000 ![0, 0] ei slices_S2x800000_S1x800000_0_0) shapeCasts_S1x800000_S800000

/-- Row 1 of the edge list: every edge's destination node. -/
def dstIdx (ei : Edges) : (⟨S800000, .i32⟩ : BufTy).Contents (Elt Ideal) :=
  shapeCast S800000 (extractStridedSlice S1x800000 ![1, 0] ei slices_S2x800000_S1x800000_1_0) shapeCasts_S1x800000_S800000

/-- The source nodes as a column of indices, a negative index counted from the end of the node axis. -/
def srcCol (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The destination nodes as a column of indices. -/
def dstCol (d : (⟨S800000, .i32⟩ : BufTy).Contents (Elt Ideal)) : (⟨S800000x1, .i32⟩ : BufTy).Contents (Elt Ideal) :=
  broadcastInDim S800000x1 ![0] bcast_S800000_S800000x1_0 d

/-- The sum, at every node, of the 128-feature rows of its incoming edges' source nodes. -/
def agg128 (s d : (⟨S800000, .i32⟩ : BufTy).Contents (Elt Ideal)) (x : Mat 50000 128) : Mat 50000 128 :=
  Host.scatterAdd (F := Ideal) scatter_S50000x128_S800000x1_S800000x128_1_0_0_1
    (broadcastInDim S50000x128 ![] bcast_S_S50000x128 (constant (F := Ideal) S_ .f32 0x00000000#32)) (dstCol d)
    (Host.gather gather_S50000x128_S800000x1_S800000x128_1_0_n_n_0_1_1128 x (srcCol s))

/-- The same over 256 features. -/
def agg256 (s d : (⟨S800000, .i32⟩ : BufTy).Contents (Elt Ideal)) (x : Mat 50000 256) : Mat 50000 256 :=
  Host.scatterAdd (F := Ideal) scatter_S50000x256_S800000x1_S800000x256_1_0_0_1
    (broadcastInDim S50000x256 ![] bcast_S_S50000x256 (constant (F := Ideal) S_ .f32 0x00000000#32)) (dstCol d)
    (Host.gather gather_S50000x256_S800000x1_S800000x256_1_0_n_n_0_1_1256 x (srcCol s))

/-- Every node's in-degree (a one added per incoming edge), clamped below at one. -/
def degClamped (d : (⟨S800000, .i32⟩ : BufTy).Contents (Elt Ideal)) : (⟨S50000, .f32⟩ : BufTy).Contents (Elt Ideal) :=
  maximumf
    (Host.scatterAdd (F := Ideal) scatter_S50000_S800000x1_S800000_n_0_0_1
      (broadcastInDim S50000 ![] bcast_S_S50000 (constant (F := Ideal) S_ .f32 0x00000000#32)) (dstCol d)
      (broadcastInDim S800000 ![] bcast_S_S800000 (constant (F := Ideal) S_ .f32 0x3F800000#32)))
    (broadcastInDim S50000 ![] bcast_S_S50000 (constant (F := Ideal) S_ .f32 0x3F800000#32))

/-- The column of reciprocals of the clamped in-degrees. -/
def invDeg (d : (⟨S800000, .i32⟩ : BufTy).Contents (Elt Ideal)) : Mat 50000 1 :=
  shapeCast S50000x1
    (Host.divf (broadcastInDim S50000 ![] bcast_S_S50000 (constant (F := Ideal) S_ .f32 0x3F800000#32)) (degClamped d))
    shapeCasts_S50000_S50000x1

/-- A bias vector of 256 entries laid out as a row. -/
def biasRow256 (b : (⟨S256, .f32⟩ : BufTy).Contents (Elt Ideal)) : Mat 1 256 := shapeCast S1x256 b shapeCasts_S256_S1x256

/-- A bias vector of 128 entries laid out as a row. -/
def biasRow128 (b : (⟨S128, .f32⟩ : BufTy).Contents (Elt Ideal)) : Mat 1 128 := shapeCast S1x128 b shapeCasts_S128_S1x128

/-- The first hidden layer. -/
def hidden1 (x : Mat 50000 128) (ei : Edges) (Wl : Mat 256 128) (b : (⟨S256, .f32⟩ : BufTy).Contents (Elt Ideal))
    (Wr : Mat 256 128) : Mat 50000 256 :=
  layerRelu x (agg128 (srcIdx ei) (dstIdx ei) x) (invDeg (dstIdx ei)) Wl (biasRow256 b) Wr

/-- The second hidden layer, over the first. -/
def hidden2 (h : Mat 50000 256) (ei : Edges) (Wl : Mat 256 256) (b : (⟨S256, .f32⟩ : BufTy).Contents (Elt Ideal))
    (Wr : Mat 256 256) : Mat 50000 256 :=
  layerResRelu h (agg256 (srcIdx ei) (dstIdx ei) h) (invDeg (dstIdx ei)) Wl (biasRow256 b) Wr

/-- The output layer, over the second. -/
def output (h : Mat 50000 256) (ei : Edges) (Wl : Mat 128 256) (b : (⟨S128, .f32⟩ : BufTy).Contents (Elt Ideal))
    (Wr Wp : Mat 128 256) : Mat 50000 128 :=
  layerProj h (agg256 (srcIdx ei) (dstIdx ei) h) (invDeg (dstIdx ei)) Wl (biasRow128 b) Wr Wp

/-- A vector laid out as a column, read at row `i`, is the vector at `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Sage

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.Body3.lean ====
/-
  The third kernel's stored value on a block of 2000 node rows: the two contractions, bias row and factor column of a
  layer from 256 features to 128, plus a third contraction of the block of node features with a projection matrix, and no
  clamp. So the stored value IS the last layer of the block.
-/
import proofs.«111636_j33122787786831_1_alg».proof.Proof.Gen.KernelIdeal.Skeleton
import proofs.«111636_j33122787786831_1_alg».proof.Proof.Layer
import proofs.«111636_j33122787786831_1_alg».proof.Proof.LibBroadcastTo
import Idealize.ShloMosaic.Lib.ValueIdx
import Idealize.ShloMosaic.Lib.ValueLayout
import Idealize.ShloMosaic.Lib.Pipeline.Value

noncomputable section
open scoped BigOperators
namespace Cert.Sage
open Idealize.ShloMosaic Idealize.ShloMosaic.ValueIdx Cert.MatProd Cert.KernelIdeal Cert.KernelIdeal.Gen

/-- A weight block rounded and transposed, read at `(k, j)`, is the weight at `(j, k)`. -/
theorem wT3_apply (w : Vec Ideal S128x256 .f32) (k : Fin 256) (j : Fin 128) :
    transpose S256x128 [1, 0] (truncf (F := Ideal) .bf16 w bitsLt_bf16_f32 : FVec Ideal S128x256 .bf16)
      transposes_S128x256_p1_0_S256x128 (ix2 k j) = w (ix2 j k) :=
  transpose_ix2_apply (a := 128) (b := 256) (truncf (F := Ideal) .bf16 w bitsLt_bf16_f32 : FVec Ideal S128x256 .bf16)
    transposes_S128x256_p1_0_S256x128 k j

/-- The third kernel's stored value is the last layer of its blocks. -/
theorem body3_eq (v0 : Vec Ideal S2000x1 .f32) (v4 v8 : Vec Ideal S2000x256 .f32) (v11 v13 v15 : Vec Ideal S128x256 .f32)
    (v19 : Vec Ideal S1x128 .f32) :
    k2_pay1 (F := Ideal) v0 v4 v8 v11 v13 v15 v19 = layerProj (N := 2000) v8 v4 v0 v11 v19 v13 v15 := by
  funext i
  obtain ⟨p, j, rfl⟩ : ∃ (p : Fin 2000) (j : Fin 128), i = ix2 p j := ⟨i 0, i 1, eq_ix2 i⟩
  unfold k2_pay1
  simp only [addf_apply]
  show ((FloatOps.matmul (DotDims.plain 2000 256 128) none _ _ (constant ⟨2, ![2000, 128]⟩ .f32 0x00000000#32) (ix2 p j)
      + broadcastTo ⟨2, ![2000, 128]⟩ _ _ (ix2 p j))
      + FloatOps.matmul (DotDims.plain 2000 256 128) none _ _ (constant ⟨2, ![2000, 128]⟩ .f32 0x00000000#32) (ix2 p j))
      + FloatOps.matmul (DotDims.plain 2000 256 128) none _ _ (constant ⟨2, ![2000, 128]⟩ .f32 0x00000000#32) (ix2 p j) = _
  rw [matmul_plain_zero_apply, matmul_plain_zero_apply, matmul_plain_zero_apply, Cert.BroadcastTo.row_apply]
  simp only [truncf_apply, mulf_apply, shapeCast_self, Cert.BroadcastTo.col_apply]
  show _ = ∑ k : Fin 256, (v4 (ix2 p k) * v0 (ix2 p 0)) * v11 (ix2 j k) + v19 (ix2 0 j)
    + ∑ k : Fin 256, v8 (ix2 p k) * v13 (ix2 j k) + ∑ k : Fin 256, v8 (ix2 p k) * v15 (ix2 j k)
  refine congrArg₂ (· + ·) (congrArg₂ (· + ·) (congrArg (· + _) (Finset.sum_congr rfl fun k _ => ?_))
    (Finset.sum_congr rfl fun k _ => ?_)) (Finset.sum_congr rfl fun k _ => ?_)
  · exact congrArg (_ * ·) (wT3_apply v11 k j)
  · exact congrArg (_ * ·) (wT3_apply v13 k j)
  · exact congrArg (_ * ·) (wT3_apply v15 k j)

end Cert.Sage
end
-- ==== Proof.Blocks3.lean ====
/-
  Region 2 of the kernel's program (layer 3) from blocks to arrays. The grid has 25 points; at point `t` the
  node-axis windows (node features, neighbour sums, the factor column, and the output) hold rows `2000 t … 2000 t + 1999`
  of their arrays, and the weight and bias windows hold their whole arrays. So what point `t` writes back is rows
  `2000 t …` of the layer of the WHOLE arrays as the region finds them (a layer's row depends on that row of the node-axis
  arrays only), every row of the output lies in the block of point `row / 2000`, and the output array after the region is
  the layer of the arrays at the region's entry.
-/
import proofs.«111636_j33122787786831_1_alg».proof.Proof.KernelIdealFrameP
import proofs.«111636_j33122787786831_1_alg».proof.Proof.Body3
import Idealize.ShloMosaic.Lib.Pipeline.Value

set_option maxRecDepth 16384

noncomputable section

namespace Cert.Sage.Region2

open Idealize.ShloMosaic Idealize.ShloMosaic.TcCoe Idealize.ShloMosaic.ValueIdx Idealize.SL.Sem
open Cert.KernelIdeal Cert.KernelIdeal.Gen Cert.KernelIdeal.GenP Cert.Sage
open Idealize.ShloMosaic.Pipeline (Dat Cfg Window)

variable (V : (c : Dev nD) → (b : Ref sig .tc) → Buf (Elt Ideal) ((c : Thread nD τ).loc b))

theorem offset_zero : (![0, 0] : Fin 2 → Nat) = fun _ => 0 := funext fun a => by fin_cases a <;> rfl

/-- The printed index maps, decided over the grid: a node-axis window is at block row `t`, a weight or bias window at
    its one block. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- A grid point is below 25. -/
theorem point_lt (t : Fin cfg2.N) : t.val < 25 := lt_of_lt_of_eq t.isLt N_2

/-- Row `p` of point `t`'s block of window 0 is row `2000 t + p` of its array. -/
theorem read_0 (c : Dev nD) (t : Fin cfg2.N) (p : Fin 2000) (k : Fin 256) (r : Fin 50000) (hr : r.val = 2000 * t.val + p.val) :
    iblk2 V c 0 t (ix2 p k) = V c main_v36 (ix2 r k) := by
  obtain ⟨e0, e1, -, -, -, -, -, -, -, -, -, -, -, -, -, -⟩ := index_maps t
  show V c main_v36 (((cfg2.win 0).blk t).view.emb (ix2 p k)) = V c main_v36 (ix2 r k)
  refine congrArg (V c main_v36) (funext fun a => Fin.ext ?_)
  match a with
  | ⟨0, _⟩ => show win2_0.index t (0 : Fin 2) * 2000 + 1 * p.val = r.val; omega
  | ⟨1, _⟩ => show win2_0.index t (1 : Fin 2) * 256 + 1 * k.val = k.val; omega

/-- Row `p` of point `t`'s block of window 1 is row `2000 t + p` of its array. -/
theorem read_1 (c : Dev nD) (t : Fin cfg2.N) (p : Fin 2000) (k : Fin 256) (r : Fin 50000) (hr : r.val = 2000 * t.val + p.val) :
    iblk2 V c 1 t (ix2 p k) = V c main_v46 (ix2 r k) := by
  obtain ⟨-, -, e0, e1, -, -, -, -, -, -, -, -, -, -, -, -⟩ := index_maps t
  show V c main_v46 (((cfg2.win 1).blk t).view.emb (ix2 p k)) = V c main_v46 (ix2 r k)
  refine congrArg (V c main_v46) (funext fun a => Fin.ext ?_)
  match a with
  | ⟨0, _⟩ => show win2_1.index t (0 : Fin 2) * 2000 + 1 * p.val = r.val; omega
  | ⟨1, _⟩ => show win2_1.index t (1 : Fin 2) * 256 + 1 * k.val = k.val; omega

/-- Row `p` of point `t`'s block of window 2 is row `2000 t + p` of its array. -/
theorem read_2 (c : Dev nD) (t : Fin cfg2.N) (p : Fin 2000) (k : Fin 1) (r : Fin 50000) (hr : r.val = 2000 * t.val + p.val) :
    iblk2 V c 2 t (ix2 p k) = V c main_v12 (ix2 r k) := by
  obtain ⟨-, -, -, -, e0, e1, -, -, -, -, -, -, -, -, -, -⟩ := index_maps t
  show V c main_v12 (((cfg2.win 2).blk t).view.emb (ix2 p k)) = V c main_v12 (ix2 r k)
  refine congrArg (V c main_v12) (funext fun a => Fin.ext ?_)
  match a with
  | ⟨0, _⟩ => show win2_2.index t (0 : Fin 2) * 2000 + 1 * p.val = r.val; omega
  | ⟨1, _⟩ => show win2_2.index t (1 : Fin 2) * 1 + 1 * k.val = k.val; omega

/-- Point `t`'s block of window 3 is its whole array. -/
theorem read_3 (c : Dev nD) (t : Fin cfg2.N) : iblk2 V c 3 t = V c main_arg8 := by
  obtain ⟨-, -, -, -, -, -, e0, e1, -, -, -, -, -, -, -, -⟩ := index_maps t
  funext y
  show V c main_arg8 (((cfg2.win 3).blk t).view.emb y) = V c main_arg8 y
  refine congrArg (V c main_arg8) (funext fun a => Fin.ext ?_)
  match a with
  | ⟨0, _⟩ => show win2_3.index t (0 : Fin 2) * 128 + 1 * (y 0).val = (y 0).val; omega
  | ⟨1, _⟩ => show win2_3.index t (1 : Fin 2) * 256 + 1 * (y 1).val = (y 1).val; omega

/-- Point `t`'s block of window 4 is its whole array. -/
theorem read_4 (c : Dev nD) (t : Fin cfg2.N) : iblk2 V c 4 t = V c main_v47 := by
  obtain ⟨-, -, -, -, -, -, -, -, e0, e1, -, -, -, -, -, -⟩ := index_maps t
  funext y
  show V c main_v47 (((cfg2.win 4).blk t).view.emb y) = V c main_v47 y
  refine congrArg (V c main_v47) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Point `t`'s block of window 5 is its whole array. -/
theorem read_5 (c : Dev nD) (t : Fin cfg2.N) : iblk2 V c 5 t = V c main_arg10 := by
  obtain ⟨-, -, -, -, -, -, -, -, -, -, e0, e1, -, -, -, -⟩ := index_maps t
  funext y
  show V c main_arg10 (((cfg2.win 5).blk t).view.emb y) = V c main_arg10 y
  refine congrArg (V c main_arg10) (funext fun a => Fin.ext ?_)
  match a with
  | ⟨0, _⟩ => show win2_5.index t (0 : Fin 2) * 128 + 1 * (y 0).val = (y 0).val; omega
  | ⟨1, _⟩ => show win2_5.index t (1 : Fin 2) * 256 + 1 * (y 1).val = (y 1).val; omega

/-- Point `t`'s block of window 6 is its whole array. -/
theorem read_6 (c : Dev nD) (t : Fin cfg2.N) : iblk2 V c 6 t = V c main_arg11 := by
  obtain ⟨-, -, -, -, -, -, -, -, -, -, -, -, e0, e1, -, -⟩ := index_maps t
  funext y
  show V c main_arg11 (((cfg2.win 6).blk t).view.emb y) = V c main_arg11 y
  refine congrArg (V c main_arg11) (funext fun a => Fin.ext ?_)
  match a with
  | ⟨0, _⟩ => show win2_6.index t (0 : Fin 2) * 128 + 1 * (y 0).val = (y 0).val; omega
  | ⟨1, _⟩ => show win2_6.index t (1 : Fin 2) * 256 + 1 * (y 1).val = (y 1).val; omega

/-- The layer of the arrays as the region finds them. -/
abbrev layerOf (c : Dev nD) : Mat 50000 128 := layerProj (V c main_v36) (V c main_v46) (V c main_v12) (V c main_arg8) (V c main_v47) (V c main_arg10) (V c main_arg11)

/-- WHAT POINT `t` WRITES BACK is block `t` of the layer of the whole arrays. -/
theorem flushed_eq (c : Dev nD) (t : Fin cfg2.N) :
    (dat2 V c).flushed 7 t = ((cfg2.win 7).blk t).view.read (Elt Ideal) (layerOf V c) := by
  show (cfg2.win 7).cut (grid2.coords t) ((dat2 V c).after 7 t) = _
  rw [after2_7]
  unfold out2_7
  rw [View.canon_unit_zero offset_zero]
  simp only [View.ld_unit_zero (S := S2000x256) offset_zero, View.ld_unit_zero (S := S2000x1) offset_zero, View.ld_unit_zero (S := S128x256) offset_zero, View.ld_unit_zero (S := S1x128) offset_zero]
  have ht := point_lt t
  obtain ⟨-, -, -, -, -, -, -, -, -, -, -, -, -, -, e0, e1⟩ := index_maps t
  funext y
  obtain ⟨p, j, rfl⟩ : ∃ (p : Fin 2000) (j : Fin 128), y = ix2 p j := ⟨y 0, y 1, eq_ix2 y⟩
  have hemb : ((cfg2.win 7).blk t).view.emb (ix2 p j) = ix2 (⟨2000 * t.val + p.val, by have := p.isLt; omega⟩ : Fin 50000) j :=
    funext fun a => Fin.ext (by
      match a with
      | ⟨0, _⟩ => show win2_7.index t (0 : Fin 2) * 2000 + 1 * p.val = 2000 * t.val + p.val; omega
      | ⟨1, _⟩ => show win2_7.index t (1 : Fin 2) * 128 + 1 * j.val = j.val; omega)
  show k2_pay1 (F := Ideal) (iblk2 V c 2 t) (iblk2 V c 1 t) (iblk2 V c 0 t) (iblk2 V c 3 t) (iblk2 V c 5 t) (iblk2 V c 6 t) (iblk2 V c 4 t) (ix2 p j) = layerOf V c (((cfg2.win 7).blk t).view.emb (ix2 p j))
  rw [hemb]
  refine (congrFun (body3_eq _ _ _ _ _ _ _) (ix2 p j)).trans ?_
  rw [read_3 V c t, read_4 V c t, read_5 V c t, read_6 V c t]
  exact congrArg₂ (· + ·)
    (conv_rows _ _ _ _ _ _ _ _ _ p ⟨2000 * t.val + p.val, by have := p.isLt; omega⟩ j
      (fun k => read_0 V c t p k _ rfl) (fun k => read_1 V c t p k _ rfl) (read_2 V c t p 0 _ rfl))
    (prod_rows _ _ _ p ⟨2000 * t.val + p.val, by have := p.isLt; omega⟩ j (fun k => read_0 V c t p k _ rfl))

/-- An index of the output array is in point `t`'s block iff each coordinate is in the block's range on its axis. -/
theorem mem_block (t : Fin cfg2.N) (i : S50000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v48).slice (win2_7.rect t)).set ↔ _
  rw [View.set_slice_whole, Rect.mem_set_unit]
  exact Iff.rfl

/-- Every index of the output array is in the block of the point `row / 2000`. -/
theorem cover (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : (i 0).val / 2000 < cfg2.N := lt_of_lt_of_eq (by omega : (i 0).val / 2000 < 25) N_2.symm
  obtain ⟨-, -, -, -, -, -, -, -, -, -, -, -, -, -, e0, e1⟩ := index_maps ⟨(i 0).val / 2000, hN⟩
  have e0' : win2_7.index ⟨(i 0).val / 2000, hN⟩ (0 : Fin 2) = (i 0).val / 2000 := e0
  refine ⟨⟨(i 0).val / 2000, hN⟩, flush2_7 _, ?_⟩
  rw [mem_block]
  intro a
  match a with
  | ⟨0, _⟩ =>
    show win2_7.index ⟨(i 0).val / 2000, hN⟩ (0 : Fin 2) * 2000 ≤ (i 0).val
      ∧ (i 0).val < win2_7.index ⟨(i 0).val / 2000, hN⟩ (0 : Fin 2) * 2000 + 2000
    omega
  | ⟨1, _⟩ =>
    show win2_7.index ⟨(i 0).val / 2000, hN⟩ (1 : Fin 2) * 128 ≤ (i 1).val
      ∧ (i 1).val < win2_7.index ⟨(i 0).val / 2000, hN⟩ (1 : Fin 2) * 128 + 128
    omega

/-- THE OUTPUT ARRAY after the region is the layer of the arrays at the region's entry. -/
theorem final (c : Dev nD) : (dat2 V c).arrAt 7 cfg2.N = layerOf V c :=
  (dat2 V c).arrAt_eq_of_cover 7 (layerOf V c) (fun t _ => flushed_eq V c t) cover

end Cert.Sage.Region2

end
-- ==== Proof.Body2.lean ====
/-
  The second kernel's stored value on a block of 2000 node rows: the same two contractions, bias row and factor column
  as the first, over 256 input features, with the block of node features itself added before the clamp at zero. So the
  stored value IS the middle layer of the block.
-/
import proofs.«111636_j33122787786831_1_alg».proof.Proof.Gen.KernelIdeal.Skeleton
import proofs.«111636_j33122787786831_1_alg».proof.Proof.Layer
import proofs.«111636_j33122787786831_1_alg».proof.Proof.LibBroadcastTo
import Idealize.ShloMosaic.Lib.ValueIdx
import Idealize.ShloMosaic.Lib.ValueLayout
import Idealize.ShloMosaic.Lib.Pipeline.Value

noncomputable section
open scoped BigOperators
namespace Cert.Sage
open Idealize.ShloMosaic Idealize.ShloMosaic.ValueIdx Cert.MatProd Cert.KernelIdeal Cert.KernelIdeal.Gen

/-- A square weight block rounded and transposed, read at `(k, j)`, is the weight at `(j, k)`. -/
theorem wT2_apply (w : Vec Ideal S256x256 .f32) (k : Fin 256) (j : Fin 256) :
    transpose S256x256 [1, 0] (truncf (F := Ideal) .bf16 w bitsLt_bf16_f32 : FVec Ideal S256x256 .bf16)
      transposes_S256x256_p1_0_S256x256 (ix2 k j) = w (ix2 j k) :=
  transpose_ix2_apply (a := 256) (b := 256) (truncf (F := Ideal) .bf16 w bitsLt_bf16_f32 : FVec Ideal S256x256 .bf16)
    transposes_S256x256_p1_0_S256x256 k j

/-- The second kernel's stored value is the middle layer of its blocks. -/
theorem body2_eq (v0 : Vec Ideal S2000x1 .f32) (v4 v8 : Vec Ideal S2000x256 .f32) (v11 v13 : Vec Ideal S256x256 .f32)
    (v17 : Vec Ideal S1x256 .f32) :
    k1_pay1 (F := Ideal) v0 v4 v8 v11 v13 v17 = layerResRelu (N := 2000) v8 v4 v0 v11 v17 v13 := by
  funext i
  obtain ⟨p, j, rfl⟩ : ∃ (p : Fin 2000) (j : Fin 256), i = ix2 p j := ⟨i 0, i 1, eq_ix2 i⟩
  unfold k1_pay1
  simp only [maximumf_apply, addf_apply, broadcast_apply]
  show max (((FloatOps.matmul (DotDims.plain 2000 256 256) none _ _ (constant ⟨2, ![2000, 256]⟩ .f32 0x00000000#32) (ix2 p j)
      + broadcastTo ⟨2, ![2000, 256]⟩ _ _ (ix2 p j))
      + FloatOps.matmul (DotDims.plain 2000 256 256) none _ _ (constant ⟨2, ![2000, 256]⟩ .f32 0x00000000#32) (ix2 p j))
      + _) _ = _
  rw [matmul_plain_zero_apply, matmul_plain_zero_apply, Cert.BroadcastTo.row_apply]
  simp only [truncf_apply, mulf_apply, shapeCast_self, Cert.BroadcastTo.col_apply]
  show _ = max (∑ k : Fin 256, (v4 (ix2 p k) * v0 (ix2 p 0)) * v11 (ix2 j k) + v17 (ix2 0 j)
    + ∑ k : Fin 256, v8 (ix2 p k) * v13 (ix2 j k) + v8 (ix2 p j)) (Ideal.ofBits .f32 0x00000000#32)
  refine congrArg (fun z => max z _) (congrArg (· + _) (congrArg₂ (· + ·)
    (congrArg (· + _) (Finset.sum_congr rfl fun k _ => ?_)) (Finset.sum_congr rfl fun k _ => ?_)))
  · exact congrArg (_ * ·) (wT2_apply v11 k j)
  · exact congrArg (_ * ·) (wT2_apply v13 k j)

end Cert.Sage
end
-- ==== Proof.Blocks2.lean ====
/-
  Region 1 of the kernel's program (layer 2) from blocks to arrays. The grid has 25 points; at point `t` the
  node-axis windows (node features, neighbour sums, the factor column, and the output) hold rows `2000 t … 2000 t + 1999`
  of their arrays, and the weight and bias windows hold their whole arrays. So what point `t` writes back is rows
  `2000 t …` of the layer of the WHOLE arrays as the region finds them (a layer's row depends on that row of the node-axis
  arrays only), every row of the output lies in the block of point `row / 2000`, and the output array after the region is
  the layer of the arrays at the region's entry.
-/
import proofs.«111636_j33122787786831_1_alg».proof.Proof.KernelIdealFrameP
import proofs.«111636_j33122787786831_1_alg».proof.Proof.Body2
import Idealize.ShloMosaic.Lib.Pipeline.Value

set_option maxRecDepth 16384

noncomputable section

namespace Cert.Sage.Region1

open Idealize.ShloMosaic Idealize.ShloMosaic.TcCoe Idealize.ShloMosaic.ValueIdx Idealize.SL.Sem
open Cert.KernelIdeal Cert.KernelIdeal.Gen Cert.KernelIdeal.GenP Cert.Sage
open Idealize.ShloMosaic.Pipeline (Dat Cfg Window)

variable (V : (c : Dev nD) → (b : Ref sig .tc) → Buf (Elt Ideal) ((c : Thread nD τ).loc b))

theorem offset_zero : (![0, 0] : Fin 2 → Nat) = fun _ => 0 := funext fun a => by fin_cases a <;> rfl

/-- The printed index maps, decided over the grid: a node-axis window is at block row `t`, a weight or bias window at
    its one block. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A grid point is below 25. -/
theorem point_lt (t : Fin cfg1.N) : t.val < 25 := lt_of_lt_of_eq t.isLt N_1

/-- Row `p` of point `t`'s block of window 0 is row `2000 t + p` of its array. -/
theorem read_0 (c : Dev nD) (t : Fin cfg1.N) (p : Fin 2000) (k : Fin 256) (r : Fin 50000) (hr : r.val = 2000 * t.val + p.val) :
    iblk1 V c 0 t (ix2 p k) = V c main_v24 (ix2 r k) := by
  obtain ⟨e0, e1, -, -, -, -, -, -, -, -, -, -, -, -⟩ := index_maps t
  show V c main_v24 (((cfg1.win 0).blk t).view.emb (ix2 p k)) = V c main_v24 (ix2 r k)
  refine congrArg (V c main_v24) (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

/-- Row `p` of point `t`'s block of window 1 is row `2000 t + p` of its array. -/
theorem read_1 (c : Dev nD) (t : Fin cfg1.N) (p : Fin 2000) (k : Fin 256) (r : Fin 50000) (hr : r.val = 2000 * t.val + p.val) :
    iblk1 V c 1 t (ix2 p k) = V c main_v34 (ix2 r k) := by
  obtain ⟨-, -, e0, e1, -, -, -, -, -, -, -, -, -, -⟩ := index_maps t
  show V c main_v34 (((cfg1.win 1).blk t).view.emb (ix2 p k)) = V c main_v34 (ix2 r k)
  refine congrArg (V c main_v34) (funext fun a => Fin.ext ?_)
  match a with
  | ⟨0, _⟩ => show win1_1.index t (0 : Fin 2) * 2000 + 1 * p.val = r.val; omega
  | ⟨1, _⟩ => show win1_1.index t (1 : Fin 2) * 256 + 1 * k.val = k.val; omega

/-- Row `p` of point `t`'s block of window 2 is row `2000 t + p` of its array. -/
theorem read_2 (c : Dev nD) (t : Fin cfg1.N) (p : Fin 2000) (k : Fin 1) (r : Fin 50000) (hr : r.val = 2000 * t.val + p.val) :
    iblk1 V c 2 t (ix2 p k) = V c main_v12 (ix2 r k) := by
  obtain ⟨-, -, -, -, e0, e1, -, -, -, -, -, -, -, -⟩ := index_maps t
  show V c main_v12 (((cfg1.win 2).blk t).view.emb (ix2 p k)) = V c main_v12 (ix2 r k)
  refine congrArg (V c main_v12) (funext fun a => Fin.ext ?_)
  match a with
  | ⟨0, _⟩ => show win1_2.index t (0 : Fin 2) * 2000 + 1 * p.val = r.val; omega
  | ⟨1, _⟩ => show win1_2.index t (1 : Fin 2) * 1 + 1 * k.val = k.val; omega

/-- Point `t`'s block of window 3 is its whole array. -/
theorem read_3 (c : Dev nD) (t : Fin cfg1.N) : iblk1 V c 3 t = V c main_arg5 := by
  obtain ⟨-, -, -, -, -, -, e0, e1, -, -, -, -, -, -⟩ := index_maps t
  funext y
  show V c main_arg5 (((cfg1.win 3).blk t).view.emb y) = V c main_arg5 y
  refine congrArg (V c main_arg5) (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- Point `t`'s block of window 4 is its whole array. -/
theorem read_4 (c : Dev nD) (t : Fin cfg1.N) : iblk1 V c 4 t = V c main_v35 := by
  obtain ⟨-, -, -, -, -, -, -, -, e0, e1, -, -, -, -⟩ := index_maps t
  funext y
  show V c main_v35 (((cfg1.win 4).blk t).view.emb y) = V c main_v35 y
  refine congrArg (V c main_v35) (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- Point `t`'s block of window 5 is its whole array. -/
theorem read_5 (c : Dev nD) (t : Fin cfg1.N) : iblk1 V c 5 t = V c main_arg7 := by
  obtain ⟨-, -, -, -, -, -, -, -, -, -, e0, e1, -, -⟩ := index_maps t
  funext y
  show V c main_arg7 (((cfg1.win 5).blk t).view.emb y) = V c main_arg7 y
  refine congrArg (V c main_arg7) (funext fun a => Fin.ext ?_)
  match a with
  | ⟨0, _⟩ => show win1_5.index t (0 : Fin 2) * 256 + 1 * (y 0).val = (y 0).val; omega
  | ⟨1, _⟩ => show win1_5.index t (1 : Fin 2) * 256 + 1 * (y 1).val = (y 1).val; omega

/-- The layer of the arrays as the region finds them. -/
abbrev layerOf (c : Dev nD) : Mat 50000 256 := layerResRelu (V c main_v24) (V c main_v34) (V c main_v12) (V c main_arg5) (V c main_v35) (V c main_arg7)

/-- WHAT POINT `t` WRITES BACK is block `t` of the layer of the whole arrays. -/
theorem flushed_eq (c : Dev nD) (t : Fin cfg1.N) :
    (dat1 V c).flushed 6 t = ((cfg1.win 6).blk t).view.read (Elt Ideal) (layerOf V c) := by
  show (cfg1.win 6).cut (grid1.coords t) ((dat1 V c).after 6 t) = _
  rw [after1_6]
  unfold out1_6
  rw [View.canon_unit_zero offset_zero]
  simp only [View.ld_unit_zero (S := S2000x256) offset_zero, View.ld_unit_zero (S := S2000x1) offset_zero, View.ld_unit_zero (S := S256x256) offset_zero, View.ld_unit_zero (S := S1x256) offset_zero]
  have ht := point_lt t
  obtain ⟨-, -, -, -, -, -, -, -, -, -, -, -, e0, e1⟩ := index_maps t
  funext y
  obtain ⟨p, j, rfl⟩ : ∃ (p : Fin 2000) (j : Fin 256), y = ix2 p j := ⟨y 0, y 1, eq_ix2 y⟩
  have hemb : ((cfg1.win 6).blk t).view.emb (ix2 p j) = ix2 (⟨2000 * t.val + p.val, by have := p.isLt; omega⟩ : Fin 50000) j :=
    funext fun a => Fin.ext (by
      match a with
      | ⟨0, _⟩ => show win1_6.index t (0 : Fin 2) * 2000 + 1 * p.val = 2000 * t.val + p.val; omega
      | ⟨1, _⟩ => show win1_6.index t (1 : Fin 2) * 256 + 1 * j.val = j.val; omega)
  show k1_pay1 (F := Ideal) (iblk1 V c 2 t) (iblk1 V c 1 t) (iblk1 V c 0 t) (iblk1 V c 3 t) (iblk1 V c 5 t) (iblk1 V c 4 t) (ix2 p j) = layerOf V c (((cfg1.win 6).blk t).view.emb (ix2 p j))
  rw [hemb]
  refine (congrFun (body2_eq _ _ _ _ _ _) (ix2 p j)).trans ?_
  rw [read_3 V c t, read_4 V c t, read_5 V c t]
  exact congrArg (fun z => max z _) (congrArg₂ (· + ·)
    (conv_rows _ _ _ _ _ _ _ _ _ p ⟨2000 * t.val + p.val, by have := p.isLt; omega⟩ j
      (fun k => read_0 V c t p k _ rfl) (fun k => read_1 V c t p k _ rfl) (read_2 V c t p 0 _ rfl))
    (read_0 V c t p j _ rfl))

/-- An index of the output array is in point `t`'s block iff each coordinate is in the block's range on its axis. -/
theorem mem_block (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v36).slice (win1_6.rect t)).set ↔ _
  rw [View.set_slice_whole, Rect.mem_set_unit]
  exact Iff.rfl

/-- Every index of the output array is in the block of the point `row / 2000`. -/
theorem cover (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  have hN : (i 0).val / 2000 < cfg1.N := lt_of_lt_of_eq (by omega : (i 0).val / 2000 < 25) N_1.symm
  obtain ⟨-, -, -, -, -, -, -, -, -, -, -, -, e0, e1⟩ := index_maps ⟨(i 0).val / 2000, hN⟩
  have e0' : win1_6.index ⟨(i 0).val / 2000, hN⟩ (0 : Fin 2) = (i 0).val / 2000 := e0
  refine ⟨⟨(i 0).val / 2000, hN⟩, flush1_6 _, ?_⟩
  rw [mem_block]
  intro a
  match a with
  | ⟨0, _⟩ =>
    show win1_6.index ⟨(i 0).val / 2000, hN⟩ (0 : Fin 2) * 2000 ≤ (i 0).val
      ∧ (i 0).val < win1_6.index ⟨(i 0).val / 2000, hN⟩ (0 : Fin 2) * 2000 + 2000
    omega
  | ⟨1, _⟩ =>
    show win1_6.index ⟨(i 0).val / 2000, hN⟩ (1 : Fin 2) * 256 ≤ (i 1).val
      ∧ (i 1).val < win1_6.index ⟨(i 0).val / 2000, hN⟩ (1 : Fin 2) * 256 + 256
    omega

/-- THE OUTPUT ARRAY after the region is the layer of the arrays at the region's entry. -/
theorem final (c : Dev nD) : (dat1 V c).arrAt 6 cfg1.N = layerOf V c :=
  (dat1 V c).arrAt_eq_of_cover 6 (layerOf V c) (fun t _ => flushed_eq V c t) cover

end Cert.Sage.Region1

end
-- ==== Proof.Body1.lean ====
/-
  The first kernel's stored value on a block of 2000 node rows, entry by entry over the extended reals: with the block
  of node features `x`, of neighbour sums `S`, the column of per-node factors `q`, the two weight matrices and the bias
  row, entry `(p, j)` is `max ((∑ k, (S (p, k) * q p) * Wl (j, k)) + b j + ∑ k, x (p, k) * Wr (j, k)) 0`: the two
  products are contractions into a zero accumulator, a change of float format is the identity, the factor column is
  spread across the row and the bias row down the rows. So the stored value IS the first layer of the block.
-/
import proofs.«111636_j33122787786831_1_alg».proof.Proof.Gen.KernelIdeal.Skeleton
import proofs.«111636_j33122787786831_1_alg».proof.Proof.Layer
import proofs.«111636_j33122787786831_1_alg».proof.Proof.LibBroadcastTo
import Idealize.ShloMosaic.Lib.ValueIdx
import Idealize.ShloMosaic.Lib.ValueLayout
import Idealize.ShloMosaic.Lib.Pipeline.Value

noncomputable section
open scoped BigOperators
namespace Cert.Sage
open Idealize.ShloMosaic Idealize.ShloMosaic.ValueIdx Cert.MatProd Cert.KernelIdeal Cert.KernelIdeal.Gen

/-- A weight block rounded and transposed, read at `(k, j)`, is the weight at `(j, k)`. -/
theorem wT1_apply (w : Vec Ideal S256x128 .f32) (k : Fin 128) (j : Fin 256) :
    transpose S128x256 [1, 0] (truncf (F := Ideal) .bf16 w bitsLt_bf16_f32 : FVec Ideal S256x128 .bf16)
      transposes_S256x128_p1_0_S128x256 (ix2 k j) = w (ix2 j k) :=
  transpose_ix2_apply (a := 256) (b := 128) (truncf (F := Ideal) .bf16 w bitsLt_bf16_f32 : FVec Ideal S256x128 .bf16)
    transposes_S256x128_p1_0_S128x256 k j

/-- The first kernel's stored value is the first layer of its blocks. -/
theorem body1_eq (v0 : Vec Ideal S2000x1 .f32) (v4 v8 : Vec Ideal S2000x128 .f32) (v10 v12 : Vec Ideal S256x128 .f32)
    (v16 : Vec Ideal S1x256 .f32) :
    k0_pay1 (F := Ideal) v0 v4 v8 v10 v12 v16 = layerRelu (N := 2000) v8 v4 v0 v10 v16 v12 := by
  funext i
  obtain ⟨p, j, rfl⟩ : ∃ (p : Fin 2000) (j : Fin 256), i = ix2 p j := ⟨i 0, i 1, eq_ix2 i⟩
  unfold k0_pay1
  simp only [maximumf_apply, addf_apply, broadcast_apply]
  show max ((FloatOps.matmul (DotDims.plain 2000 128 256) none _ _ (constant ⟨2, ![2000, 256]⟩ .f32 0x00000000#32) (ix2 p j)
      + broadcastTo ⟨2, ![2000, 256]⟩ _ _ (ix2 p j))
      + FloatOps.matmul (DotDims.plain 2000 128 256) none _ _ (constant ⟨2, ![2000, 256]⟩ .f32 0x00000000#32) (ix2 p j)) _ = _
  rw [matmul_plain_zero_apply, matmul_plain_zero_apply, Cert.BroadcastTo.row_apply]
  simp only [truncf_apply, mulf_apply, shapeCast_self, Cert.BroadcastTo.col_apply]
  show _ = max (∑ k : Fin 128, (v4 (ix2 p k) * v0 (ix2 p 0)) * v10 (ix2 j k) + v16 (ix2 0 j)
    + ∑ k : Fin 128, v8 (ix2 p k) * v12 (ix2 j k)) (Ideal.ofBits .f32 0x00000000#32)
  refine congrArg (fun z => max z _) (congrArg₂ (· + ·) (congrArg (· + _) (Finset.sum_congr rfl fun k _ => ?_))
    (Finset.sum_congr rfl fun k _ => ?_))
  · exact congrArg (_ * ·) (wT1_apply v10 k j)
  · exact congrArg (_ * ·) (wT1_apply v12 k j)

end Cert.Sage
end
-- ==== Proof.Blocks1.lean ====
/-
  Region 0 of the kernel's program (layer 1) from blocks to arrays. The grid has 25 points; at point `t` the
  node-axis windows (node features, neighbour sums, the factor column, and the output) hold rows `2000 t … 2000 t + 1999`
  of their arrays, and the weight and bias windows hold their whole arrays. So what point `t` writes back is rows
  `2000 t …` of the layer of the WHOLE arrays as the region finds them (a layer's row depends on that row of the node-axis
  arrays only), every row of the output lies in the block of point `row / 2000`, and the output array after the region is
  the layer of the arrays at the region's entry.
-/
import proofs.«111636_j33122787786831_1_alg».proof.Proof.KernelIdealFrameP
import proofs.«111636_j33122787786831_1_alg».proof.Proof.Body1
import Idealize.ShloMosaic.Lib.Pipeline.Value

set_option maxRecDepth 16384

noncomputable section

namespace Cert.Sage.Region0

open Idealize.ShloMosaic Idealize.ShloMosaic.TcCoe Idealize.ShloMosaic.ValueIdx Idealize.SL.Sem
open Cert.KernelIdeal Cert.KernelIdeal.Gen Cert.KernelIdeal.GenP Cert.Sage
open Idealize.ShloMosaic.Pipeline (Dat Cfg Window)

variable (V : (c : Dev nD) → (b : Ref sig .tc) → Buf (Elt Ideal) ((c : Thread nD τ).loc b))

theorem offset_zero : (![0, 0] : Fin 2 → Nat) = fun _ => 0 := funext fun a => by fin_cases a <;> rfl

/-- The printed index maps, decided over the grid: a node-axis window is at block row `t`, a weight or bias window at
    its one block. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A grid point is below 25. -/
theorem point_lt (t : Fin cfg0.N) : t.val < 25 := lt_of_lt_of_eq t.isLt N_0

/-- Row `p` of point `t`'s block of window 0 is row `2000 t + p` of its array. -/
theorem read_0 (c : Dev nD) (t : Fin cfg0.N) (p : Fin 2000) (k : Fin 128) (r : Fin 50000) (hr : r.val = 2000 * t.val + p.val) :
    iblk0 V c 0 t (ix2 p k) = V c main_arg0 (ix2 r k) := by
  obtain ⟨e0, e1, -, -, -, -, -, -, -, -, -, -, -, -⟩ := index_maps t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Row `p` of point `t`'s block of window 1 is row `2000 t + p` of its array. -/
theorem read_1 (c : Dev nD) (t : Fin cfg0.N) (p : Fin 2000) (k : Fin 128) (r : Fin 50000) (hr : r.val = 2000 * t.val + p.val) :
    iblk0 V c 1 t (ix2 p k) = V c main_v22 (ix2 r k) := by
  obtain ⟨-, -, e0, e1, -, -, -, -, -, -, -, -, -, -⟩ := index_maps t
  show V c main_v22 (((cfg0.win 1).blk t).view.emb (ix2 p k)) = V c main_v22 (ix2 r k)
  refine congrArg (V c main_v22) (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

/-- Row `p` of point `t`'s block of window 2 is row `2000 t + p` of its array. -/
theorem read_2 (c : Dev nD) (t : Fin cfg0.N) (p : Fin 2000) (k : Fin 1) (r : Fin 50000) (hr : r.val = 2000 * t.val + p.val) :
    iblk0 V c 2 t (ix2 p k) = V c main_v12 (ix2 r k) := by
  obtain ⟨-, -, -, -, e0, e1, -, -, -, -, -, -, -, -⟩ := index_maps t
  show V c main_v12 (((cfg0.win 2).blk t).view.emb (ix2 p k)) = V c main_v12 (ix2 r k)
  refine congrArg (V c main_v12) (funext fun a => Fin.ext ?_)
  match a with
  | ⟨0, _⟩ => show win0_2.index t (0 : Fin 2) * 2000 + 1 * p.val = r.val; omega
  | ⟨1, _⟩ => show win0_2.index t (1 : Fin 2) * 1 + 1 * k.val = k.val; omega

/-- Point `t`'s block of window 3 is its whole array. -/
theorem read_3 (c : Dev nD) (t : Fin cfg0.N) : iblk0 V c 3 t = V c main_arg2 := by
  obtain ⟨-, -, -, -, -, -, e0, e1, -, -, -, -, -, -⟩ := index_maps t
  funext y
  show V c main_arg2 (((cfg0.win 3).blk t).view.emb y) = V c main_arg2 y
  refine congrArg (V c main_arg2) (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

/-- Point `t`'s block of window 4 is its whole array. -/
theorem read_4 (c : Dev nD) (t : Fin cfg0.N) : iblk0 V c 4 t = V c main_v23 := by
  obtain ⟨-, -, -, -, -, -, -, -, e0, e1, -, -, -, -⟩ := index_maps t
  funext y
  show V c main_v23 (((cfg0.win 4).blk t).view.emb y) = V c main_v23 y
  refine congrArg (V c main_v23) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Point `t`'s block of window 5 is its whole array. -/
theorem read_5 (c : Dev nD) (t : Fin cfg0.N) : iblk0 V c 5 t = V c main_arg4 := by
  obtain ⟨-, -, -, -, -, -, -, -, -, -, e0, e1, -, -⟩ := index_maps t
  funext y
  show V c main_arg4 (((cfg0.win 5).blk t).view.emb y) = V c main_arg4 y
  refine congrArg (V c main_arg4) (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

/-- The layer of the arrays as the region finds them. -/
abbrev layerOf (c : Dev nD) : Mat 50000 256 := layerRelu (V c main_arg0) (V c main_v22) (V c main_v12) (V c main_arg2) (V c main_v23) (V c main_arg4)

/-- WHAT POINT `t` WRITES BACK is block `t` of the layer of the whole arrays. -/
theorem flushed_eq (c : Dev nD) (t : Fin cfg0.N) :
    (dat0 V c).flushed 6 t = ((cfg0.win 6).blk t).view.read (Elt Ideal) (layerOf V c) := by
  show (cfg0.win 6).cut (grid0.coords t) ((dat0 V c).after 6 t) = _
  rw [after0_6]
  unfold out0_6
  rw [View.canon_unit_zero offset_zero]
  simp only [View.ld_unit_zero (S := S2000x128) offset_zero, View.ld_unit_zero (S := S2000x1) offset_zero, View.ld_unit_zero (S := S256x128) offset_zero, View.ld_unit_zero (S := S1x256) offset_zero]
  have ht := point_lt t
  obtain ⟨-, -, -, -, -, -, -, -, -, -, -, -, e0, e1⟩ := index_maps t
  funext y
  obtain ⟨p, j, rfl⟩ : ∃ (p : Fin 2000) (j : Fin 256), y = ix2 p j := ⟨y 0, y 1, eq_ix2 y⟩
  have hemb : ((cfg0.win 6).blk t).view.emb (ix2 p j) = ix2 (⟨2000 * t.val + p.val, by have := p.isLt; omega⟩ : Fin 50000) j :=
    funext fun a => Fin.ext (by
      match a with
      | ⟨0, _⟩ => show win0_6.index t (0 : Fin 2) * 2000 + 1 * p.val = 2000 * t.val + p.val; omega
      | ⟨1, _⟩ => show win0_6.index t (1 : Fin 2) * 256 + 1 * j.val = j.val; omega)
  show k0_pay1 (F := Ideal) (iblk0 V c 2 t) (iblk0 V c 1 t) (iblk0 V c 0 t) (iblk0 V c 3 t) (iblk0 V c 5 t) (iblk0 V c 4 t) (ix2 p j) = layerOf V c (((cfg0.win 6).blk t).view.emb (ix2 p j))
  rw [hemb]
  refine (congrFun (body1_eq _ _ _ _ _ _) (ix2 p j)).trans ?_
  rw [read_3 V c t, read_4 V c t, read_5 V c t]
  exact congrArg (fun z => max z _) (conv_rows _ _ _ _ _ _ _ _ _ p ⟨2000 * t.val + p.val, by have := p.isLt; omega⟩ j
    (fun k => read_0 V c t p k _ rfl) (fun k => read_1 V c t p k _ rfl) (read_2 V c t p 0 _ rfl))

/-- An index of the output array is in point `t`'s block iff each coordinate is in the block's range on its axis. -/
theorem mem_block (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v24).slice (win0_6.rect t)).set ↔ _
  rw [View.set_slice_whole, Rect.mem_set_unit]
  exact Iff.rfl

/-- Every index of the output array is in the block of the point `row / 2000`. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hN : (i 0).val / 2000 < cfg0.N := lt_of_lt_of_eq (by omega : (i 0).val / 2000 < 25) N_0.symm
  obtain ⟨-, -, -, -, -, -, -, -, -, -, -, -, e0, e1⟩ := index_maps ⟨(i 0).val / 2000, hN⟩
  have e0' : win0_6.index ⟨(i 0).val / 2000, hN⟩ (0 : Fin 2) = (i 0).val / 2000 := e0
  refine ⟨⟨(i 0).val / 2000, hN⟩, flush0_6 _, ?_⟩
  rw [mem_block]
  intro a
  match a with
  | ⟨0, _⟩ =>
    show win0_6.index ⟨(i 0).val / 2000, hN⟩ (0 : Fin 2) * 2000 ≤ (i 0).val
      ∧ (i 0).val < win0_6.index ⟨(i 0).val / 2000, hN⟩ (0 : Fin 2) * 2000 + 2000
    omega
  | ⟨1, _⟩ =>
    show win0_6.index ⟨(i 0).val / 2000, hN⟩ (1 : Fin 2) * 256 ≤ (i 1).val
      ∧ (i 1).val < win0_6.index ⟨(i 0).val / 2000, hN⟩ (1 : Fin 2) * 256 + 256
    omega

/-- THE OUTPUT ARRAY after the region is the layer of the arrays at the region's entry. -/
theorem final (c : Dev nD) : (dat0 V c).arrAt 6 cfg0.N = layerOf V c :=
  (dat0 V c).arrAt_eq_of_cover 6 (layerOf V c) (fun t _ => flushed_eq V c t) cover

end Cert.Sage.Region0

end
-- ==== Proof.Fold1.lean ====
/-
  The buffers at the first two boundaries of the kernel's program, each as a closed term of the launch memory.
  After the first stretch of host operations: the arguments as launched; the source and destination nodes of the edges;
  the reciprocal in-degree column; the neighbour sums of the input features; the first bias as a row. After region 0:
  the same, and its output array at the first hidden layer of the launch arrays (the region leaves its input arrays and
  every other buffer as it found them).
-/
import proofs.«111636_j33122787786831_1_alg».proof.Proof.KernelIdealFrameP
import proofs.«111636_j33122787786831_1_alg».proof.Proof.Net
import proofs.«111636_j33122787786831_1_alg».proof.Proof.Blocks1
import Idealize.ShloMosaic.Lib.StableHlo.Run

set_option maxRecDepth 16384

noncomputable section

namespace Cert.Sage

open Idealize.ShloMosaic Idealize.ShloMosaic.TcCoe Idealize.ShloMosaic.ValueIdx Idealize.SL.Sem Idealize.ShloMosaic.StableHlo
open Cert.KernelIdeal Cert.KernelIdeal.Gen Cert.KernelIdeal.GenP
open Idealize.ShloMosaic.Pipeline (Dat Cfg Window)

variable (m : (ℓ : Loc nD τ sig) → Buf (Elt Ideal) ℓ) (ρ : Dev nD → PrngReg)

/-- The first hidden layer of the launch arrays. -/
abbrev H1 (c : Dev nD) : Mat 50000 256 := hidden1 (m ((c : Thread nD τ).loc main_arg0)) (m ((c : Thread nD τ).loc main_arg1)) (m ((c : Thread nD τ).loc main_arg2)) (m ((c : Thread nD τ).loc main_arg3)) (m ((c : Thread nD τ).loc main_arg4))

/-! ## After the first stretch of host operations -/

theorem w1_main_arg0 (c : Dev nD) : W1 m ρ c (Proc.devRef .tc main_arg0) = m ((c : Thread nD τ).loc main_arg0) := by
  show StableHlo.after hostOps0 (W0 m ρ c) (Proc.devRef .tc main_arg0) = _
  after_results <;> rfl

theorem w1_main_arg2 (c : Dev nD) : W1 m ρ c (Proc.devRef .tc main_arg2) = m ((c : Thread nD τ).loc main_arg2) := by
  show StableHlo.after hostOps0 (W0 m ρ c) (Proc.devRef .tc main_arg2) = _
  after_results <;> rfl

theorem w1_main_arg4 (c : Dev nD) : W1 m ρ c (Proc.devRef .tc main_arg4) = m ((c : Thread nD τ).loc main_arg4) := by
  show StableHlo.after hostOps0 (W0 m ρ c) (Proc.devRef .tc main_arg4) = _
  after_results <;> rfl

theorem w1_main_v12 (c : Dev nD) : W1 m ρ c (Proc.devRef .tc main_v12) = invDeg (dstIdx (m ((c : Thread nD τ).loc main_arg1))) := by
  show StableHlo.after hostOps0 (W0 m ρ c) (Proc.devRef .tc main_v12) = _
  after_results <;> rfl

theorem w1_main_v22 (c : Dev nD) : W1 m ρ c (Proc.devRef .tc main_v22) = agg128 (srcIdx (m ((c : Thread nD τ).loc main_arg1))) (dstIdx (m ((c : Thread nD τ).loc main_arg1))) (m ((c : Thread nD τ).loc main_arg0)) := by
  show StableHlo.after hostOps0 (W0 m ρ c) (Proc.devRef .tc main_v22) = _
  after_results_simp <;> rfl

theorem w1_main_v23 (c : Dev nD) : W1 m ρ c (Proc.devRef .tc main_v23) = biasRow256 (m ((c : Thread nD τ).loc main_arg3)) := by
  show StableHlo.after hostOps0 (W0 m ρ c) (Proc.devRef .tc main_v23) = _
  after_results <;> rfl

theorem w1_main_arg5 (c : Dev nD) : W1 m ρ c (Proc.devRef .tc main_arg5) = m ((c : Thread nD τ).loc main_arg5) := by
  show StableHlo.after hostOps0 (W0 m ρ c) (Proc.devRef .tc main_arg5) = _
  after_results <;> rfl

theorem w1_main_arg6 (c : Dev nD) : W1 m ρ c (Proc.devRef .tc main_arg6) = m ((c : Thread nD τ).loc main_arg6) := by
  show StableHlo.after hostOps0 (W0 m ρ c) (Proc.devRef .tc main_arg6) = _
  after_results <;> rfl

theorem w1_main_arg7 (c : Dev nD) : W1 m ρ c (Proc.devRef .tc main_arg7) = m ((c : Thread nD τ).loc main_arg7) := by
  show StableHlo.after hostOps0 (W0 m ρ c) (Proc.devRef .tc main_arg7) = _
  after_results <;> rfl

theorem w1_main_arg8 (c : Dev nD) : W1 m ρ c (Proc.devRef .tc main_arg8) = m ((c : Thread nD τ).loc main_arg8) := by
  show StableHlo.after hostOps0 (W0 m ρ c) (Proc.devRef .tc main_arg8) = _
  after_results <;> rfl

theorem w1_main_arg9 (c : Dev nD) : W1 m ρ c (Proc.devRef .tc main_arg9) = m ((c : Thread nD τ).loc main_arg9) := by
  show StableHlo.after hostOps0 (W0 m ρ c) (Proc.devRef .tc main_arg9) = _
  after_results <;> rfl

theorem w1_main_arg10 (c : Dev nD) : W1 m ρ c (Proc.devRef .tc main_arg10) = m ((c : Thread nD τ).loc main_arg10) := by
  show StableHlo.after hostOps0 (W0 m ρ c) (Proc.devRef .tc main_arg10) = _
  after_results <;> rfl

theorem w1_main_arg11 (c : Dev nD) : W1 m ρ c (Proc.devRef .tc main_arg11) = m ((c : Thread nD τ).loc main_arg11) := by
  show StableHlo.after hostOps0 (W0 m ρ c) (Proc.devRef .tc main_arg11) = _
  after_results <;> rfl

theorem w1_main_v1 (c : Dev nD) : W1 m ρ c (Proc.devRef .tc main_v1) = srcIdx (m ((c : Thread nD τ).loc main_arg1)) := by
  show StableHlo.after hostOps0 (W0 m ρ c) (Proc.devRef .tc main_v1) = _
  after_results <;> rfl

theorem w1_main_v3 (c : Dev nD) : W1 m ρ c (Proc.devRef .tc main_v3) = dstIdx (m ((c : Thread nD τ).loc main_arg1)) := by
  show StableHlo.after hostOps0 (W0 m ρ c) (Proc.devRef .tc main_v3) = _
  after_results <;> rfl

/-! ## After region 0 -/

theorem w2_main_arg5 (c : Dev nD) : W2 m ρ c (Proc.devRef .tc main_arg5) = m ((c : Thread nD τ).loc main_arg5) :=
  (W2_of_ne m ρ c main_arg5 (by decide)).trans (w1_main_arg5 m ρ c)

theorem w2_main_arg6 (c : Dev nD) : W2 m ρ c (Proc.devRef .tc main_arg6) = m ((c : Thread nD τ).loc main_arg6) :=
  (W2_of_ne m ρ c main_arg6 (by decide)).trans (w1_main_arg6 m ρ c)

theorem w2_main_arg7 (c : Dev nD) : W2 m ρ c (Proc.devRef .tc main_arg7) = m ((c : Thread nD τ).loc main_arg7) :=
  (W2_of_ne m ρ c main_arg7 (by decide)).trans (w1_main_arg7 m ρ c)

theorem w2_main_arg8 (c : Dev nD) : W2 m ρ c (Proc.devRef .tc main_arg8) = m ((c : Thread nD τ).loc main_arg8) :=
  (W2_of_ne m ρ c main_arg8 (by decide)).trans (w1_main_arg8 m ρ c)

theorem w2_main_arg9 (c : Dev nD) : W2 m ρ c (Proc.devRef .tc main_arg9) = m ((c : Thread nD τ).loc main_arg9) :=
  (W2_of_ne m ρ c main_arg9 (by decide)).trans (w1_main_arg9 m ρ c)

theorem w2_main_arg10 (c : Dev nD) : W2 m ρ c (Proc.devRef .tc main_arg10) = m ((c : Thread nD τ).loc main_arg10) :=
  (W2_of_ne m ρ c main_arg10 (by decide)).trans (w1_main_arg10 m ρ c)

theorem w2_main_arg11 (c : Dev nD) : W2 m ρ c (Proc.devRef .tc main_arg11) = m ((c : Thread nD τ).loc main_arg11) :=
  (W2_of_ne m ρ c main_arg11 (by decide)).trans (w1_main_arg11 m ρ c)

theorem w2_main_v1 (c : Dev nD) : W2 m ρ c (Proc.devRef .tc main_v1) = srcIdx (m ((c : Thread nD τ).loc main_arg1)) :=
  (W2_of_ne m ρ c main_v1 (by decide)).trans (w1_main_v1 m ρ c)

theorem w2_main_v3 (c : Dev nD) : W2 m ρ c (Proc.devRef .tc main_v3) = dstIdx (m ((c : Thread nD τ).loc main_arg1)) :=
  (W2_of_ne m ρ c main_v3 (by decide)).trans (w1_main_v3 m ρ c)

theorem w2_main_v12 (c : Dev nD) : W2 m ρ c (Proc.devRef .tc main_v12) = invDeg (dstIdx (m ((c : Thread nD τ).loc main_arg1))) :=
  (W2_arr m ρ c 2).trans (((dat0 (V1 m ρ) c).arrAt_in 2 rfl _).trans ((A_eq0 (V1 m ρ) c 2).trans (w1_main_v12 m ρ c)))

theorem w2_main_v24 (c : Dev nD) : W2 m ρ c (Proc.devRef .tc main_v24) = H1 m c := by
  refine (W2_arr m ρ c 6).trans ((Region0.final (V1 m ρ) c).trans ?_)
  show layerRelu (W1 m ρ c (Proc.devRef .tc main_arg0)) (W1 m ρ c (Proc.devRef .tc main_v22)) (W1 m ρ c (Proc.devRef .tc main_v12))
    (W1 m ρ c (Proc.devRef .tc main_arg2)) (W1 m ρ c (Proc.devRef .tc main_v23)) (W1 m ρ c (Proc.devRef .tc main_arg4)) = _
  rw [w1_main_arg0, w1_main_v22, w1_main_v12, w1_main_arg2, w1_main_v23, w1_main_arg4]
  rfl

end Cert.Sage

end
-- ==== Proof.Fold2.lean ====
/-
  The buffers at the third and fourth boundaries of the kernel's program, each as a closed term of the launch memory.
  After the second stretch of host operations: the first hidden layer, its neighbour sums, the second bias as a row, and
  what later stretches read, unchanged. After region 1: the same, and its output array at the second hidden layer.
-/
import proofs.«111636_j33122787786831_1_alg».proof.Proof.KernelIdealFrameP
import proofs.«111636_j33122787786831_1_alg».proof.Proof.Net
import proofs.«111636_j33122787786831_1_alg».proof.Proof.Blocks2
import proofs.«111636_j33122787786831_1_alg».proof.Proof.Fold1
import Idealize.ShloMosaic.Lib.StableHlo.Run

set_option maxRecDepth 16384

noncomputable section

namespace Cert.Sage

open Idealize.ShloMosaic Idealize.ShloMosaic.TcCoe Idealize.ShloMosaic.ValueIdx Idealize.SL.Sem Idealize.ShloMosaic.StableHlo
open Cert.KernelIdeal Cert.KernelIdeal.Gen Cert.KernelIdeal.GenP
open Idealize.ShloMosaic.Pipeline (Dat Cfg Window)

variable (m : (ℓ : Loc nD τ sig) → Buf (Elt Ideal) ℓ) (ρ : Dev nD → PrngReg)

/-- The second hidden layer of the launch arrays. -/
abbrev H2 (c : Dev nD) : Mat 50000 256 := hidden2 (H1 m c) (m ((c : Thread nD τ).loc main_arg1)) (m ((c : Thread nD τ).loc main_arg5)) (m ((c : Thread nD τ).loc main_arg6)) (m ((c : Thread nD τ).loc main_arg7))

/-! ## After the second stretch of host operations -/

theorem w3_main_v24 (c : Dev nD) : W3 m ρ c (Proc.devRef .tc main_v24) = H1 m c := by
  show StableHlo.after hostOps1 (W2 m ρ c) (Proc.devRef .tc main_v24) = _
  after_results <;> exact w2_main_v24 m ρ c

theorem w3_main_v12 (c : Dev nD) : W3 m ρ c (Proc.devRef .tc main_v12) = invDeg (dstIdx (m ((c : Thread nD τ).loc main_arg1))) := by
  show StableHlo.after hostOps1 (W2 m ρ c) (Proc.devRef .tc main_v12) = _
  after_results <;> exact w2_main_v12 m ρ c

theorem w3_main_arg5 (c : Dev nD) : W3 m ρ c (Proc.devRef .tc main_arg5) = m ((c : Thread nD τ).loc main_arg5) := by
  show StableHlo.after hostOps1 (W2 m ρ c) (Proc.devRef .tc main_arg5) = _
  after_results <;> exact w2_main_arg5 m ρ c

theorem w3_main_arg7 (c : Dev nD) : W3 m ρ c (Proc.devRef .tc main_arg7) = m ((c : Thread nD τ).loc main_arg7) := by
  show StableHlo.after hostOps1 (W2 m ρ c) (Proc.devRef .tc main_arg7) = _
  after_results <;> exact w2_main_arg7 m ρ c

theorem w3_main_arg8 (c : Dev nD) : W3 m ρ c (Proc.devRef .tc main_arg8) = m ((c : Thread nD τ).loc main_arg8) := by
  show StableHlo.after hostOps1 (W2 m ρ c) (Proc.devRef .tc main_arg8) = _
  after_results <;> exact w2_main_arg8 m ρ c

theorem w3_main_arg9 (c : Dev nD) : W3 m ρ c (Proc.devRef .tc main_arg9) = m ((c : Thread nD τ).loc main_arg9) := by
  show StableHlo.after hostOps1 (W2 m ρ c) (Proc.devRef .tc main_arg9) = _
  after_results <;> exact w2_main_arg9 m ρ c

theorem w3_main_arg10 (c : Dev nD) : W3 m ρ c (Proc.devRef .tc main_arg10) = m ((c : Thread nD τ).loc main_arg10) := by
  show StableHlo.after hostOps1 (W2 m ρ c) (Proc.devRef .tc main_arg10) = _
  after_results <;> exact w2_main_arg10 m ρ c

theorem w3_main_arg11 (c : Dev nD) : W3 m ρ c (Proc.devRef .tc main_arg11) = m ((c : Thread nD τ).loc main_arg11) := by
  show StableHlo.after hostOps1 (W2 m ρ c) (Proc.devRef .tc main_arg11) = _
  after_results <;> exact w2_main_arg11 m ρ c

theorem w3_main_v1 (c : Dev nD) : W3 m ρ c (Proc.devRef .tc main_v1) = srcIdx (m ((c : Thread nD τ).loc main_arg1)) := by
  show StableHlo.after hostOps1 (W2 m ρ c) (Proc.devRef .tc main_v1) = _
  after_results <;> exact w2_main_v1 m ρ c

theorem w3_main_v3 (c : Dev nD) : W3 m ρ c (Proc.devRef .tc main_v3) = dstIdx (m ((c : Thread nD τ).loc main_arg1)) := by
  show StableHlo.after hostOps1 (W2 m ρ c) (Proc.devRef .tc main_v3) = _
  after_results <;> exact w2_main_v3 m ρ c

theorem w3_main_v34 (c : Dev nD) : W3 m ρ c (Proc.devRef .tc main_v34) = agg256 (srcIdx (m ((c : Thread nD τ).loc main_arg1))) (dstIdx (m ((c : Thread nD τ).loc main_arg1))) (H1 m c) := by
  show StableHlo.after hostOps1 (W2 m ρ c) (Proc.devRef .tc main_v34) = _
  after_results <;> (rw [w2_main_v24, w2_main_v1, w2_main_v3] <;> rfl)

theorem w3_main_v35 (c : Dev nD) : W3 m ρ c (Proc.devRef .tc main_v35) = biasRow256 (m ((c : Thread nD τ).loc main_arg6)) := by
  show StableHlo.after hostOps1 (W2 m ρ c) (Proc.devRef .tc main_v35) = _
  after_results <;> (rw [w2_main_arg6] <;> rfl)

/-! ## After region 1 -/

theorem w4_main_arg8 (c : Dev nD) : W4 m ρ c (Proc.devRef .tc main_arg8) = m ((c : Thread nD τ).loc main_arg8) :=
  (W4_of_ne m ρ c main_arg8 (by decide)).trans (w3_main_arg8 m ρ c)

theorem w4_main_arg9 (c : Dev nD) : W4 m ρ c (Proc.devRef .tc main_arg9) = m ((c : Thread nD τ).loc main_arg9) :=
  (W4_of_ne m ρ c main_arg9 (by decide)).trans (w3_main_arg9 m ρ c)

theorem w4_main_arg10 (c : Dev nD) : W4 m ρ c (Proc.devRef .tc main_arg10) = m ((c : Thread nD τ).loc main_arg10) :=
  (W4_of_ne m ρ c main_arg10 (by decide)).trans (w3_main_arg10 m ρ c)

theorem w4_main_arg11 (c : Dev nD) : W4 m ρ c (Proc.devRef .tc main_arg11) = m ((c : Thread nD τ).loc main_arg11) :=
  (W4_of_ne m ρ c main_arg11 (by decide)).trans (w3_main_arg11 m ρ c)

theorem w4_main_v1 (c : Dev nD) : W4 m ρ c (Proc.devRef .tc main_v1) = srcIdx (m ((c : Thread nD τ).loc main_arg1)) :=
  (W4_of_ne m ρ c main_v1 (by decide)).trans (w3_main_v1 m ρ c)

theorem w4_main_v3 (c : Dev nD) : W4 m ρ c (Proc.devRef .tc main_v3) = dstIdx (m ((c : Thread nD τ).loc main_arg1)) :=
  (W4_of_ne m ρ c main_v3 (by decide)).trans (w3_main_v3 m ρ c)

theorem w4_main_v12 (c : Dev nD) : W4 m ρ c (Proc.devRef .tc main_v12) = invDeg (dstIdx (m ((c : Thread nD τ).loc main_arg1))) :=
  (W4_arr m ρ c 2).trans (((dat1 (V3 m ρ) c).arrAt_in 2 rfl _).trans ((A_eq1 (V3 m ρ) c 2).trans (w3_main_v12 m ρ c)))

theorem w4_main_v36 (c : Dev nD) : W4 m ρ c (Proc.devRef .tc main_v36) = H2 m c := by
  refine (W4_arr m ρ c 6).trans ((Region1.final (V3 m ρ) c).trans ?_)
  show layerResRelu (W3 m ρ c (Proc.devRef .tc main_v24)) (W3 m ρ c (Proc.devRef .tc main_v34)) (W3 m ρ c (Proc.devRef .tc main_v12))
    (W3 m ρ c (Proc.devRef .tc main_arg5)) (W3 m ρ c (Proc.devRef .tc main_v35)) (W3 m ρ c (Proc.devRef .tc main_arg7)) = _
  rw [w3_main_v24, w3_main_v34, w3_main_v12, w3_main_arg5, w3_main_v35, w3_main_arg7]
  rfl

end Cert.Sage

end
-- ==== Proof.Fold3.lean ====
/-
  The buffers at the last two boundaries of the kernel's program. After the third stretch of host operations: the second
  hidden layer, its neighbour sums, the third bias as a row, and the last layer's weights as launched. After region 2: its
  output array — the program's result — at the output layer of the launch arrays: the network of Net.lean.
-/
import proofs.«111636_j33122787786831_1_alg».proof.Proof.KernelIdealFrameP
import proofs.«111636_j33122787786831_1_alg».proof.Proof.Net
import proofs.«111636_j33122787786831_1_alg».proof.Proof.Blocks3
import proofs.«111636_j33122787786831_1_alg».proof.Proof.Fold2
import Idealize.ShloMosaic.Lib.StableHlo.Run

set_option maxRecDepth 16384

noncomputable section

namespace Cert.Sage

open Idealize.ShloMosaic Idealize.ShloMosaic.TcCoe Idealize.ShloMosaic.ValueIdx Idealize.SL.Sem Idealize.ShloMosaic.StableHlo
open Cert.KernelIdeal Cert.KernelIdeal.Gen Cert.KernelIdeal.GenP
open Idealize.ShloMosaic.Pipeline (Dat Cfg Window)

variable (m : (ℓ : Loc nD τ sig) → Buf (Elt Ideal) ℓ) (ρ : Dev nD → PrngReg)

/-- The network's output of the launch arrays. -/
abbrev OUT (c : Dev nD) : Mat 50000 128 := output (H2 m c) (m ((c : Thread nD τ).loc main_arg1)) (m ((c : Thread nD τ).loc main_arg8)) (m ((c : Thread nD τ).loc main_arg9)) (m ((c : Thread nD τ).loc main_arg10)) (m ((c : Thread nD τ).loc main_arg11))

/-! ## After the third stretch of host operations -/

theorem w5_main_v36 (c : Dev nD) : W5 m ρ c (Proc.devRef .tc main_v36) = H2 m c := by
  show StableHlo.after hostOps2 (W4 m ρ c) (Proc.devRef .tc main_v36) = _
  after_results <;> exact w4_main_v36 m ρ c

theorem w5_main_v12 (c : Dev nD) : W5 m ρ c (Proc.devRef .tc main_v12) = invDeg (dstIdx (m ((c : Thread nD τ).loc main_arg1))) := by
  show StableHlo.after hostOps2 (W4 m ρ c) (Proc.devRef .tc main_v12) = _
  after_results <;> exact w4_main_v12 m ρ c

theorem w5_main_arg8 (c : Dev nD) : W5 m ρ c (Proc.devRef .tc main_arg8) = m ((c : Thread nD τ).loc main_arg8) := by
  show StableHlo.after hostOps2 (W4 m ρ c) (Proc.devRef .tc main_arg8) = _
  after_results <;> exact w4_main_arg8 m ρ c

theorem w5_main_arg10 (c : Dev nD) : W5 m ρ c (Proc.devRef .tc main_arg10) = m ((c : Thread nD τ).loc main_arg10) := by
  show StableHlo.after hostOps2 (W4 m ρ c) (Proc.devRef .tc main_arg10) = _
  after_results <;> exact w4_main_arg10 m ρ c

theorem w5_main_arg11 (c : Dev nD) : W5 m ρ c (Proc.devRef .tc main_arg11) = m ((c : Thread nD τ).loc main_arg11) := by
  show StableHlo.after hostOps2 (W4 m ρ c) (Proc.devRef .tc main_arg11) = _
  after_results <;> exact w4_main_arg11 m ρ c

set_option maxHeartbeats 2000000 in
theorem w5_main_v46 (c : Dev nD) : W5 m ρ c (Proc.devRef .tc main_v46) = agg256 (srcIdx (m ((c : Thread nD τ).loc main_arg1))) (dstIdx (m ((c : Thread nD τ).loc main_arg1))) (H2 m c) := by
  show StableHlo.after hostOps2 (W4 m ρ c) (Proc.devRef .tc main_v46) = _
  after_results <;> (rw [w4_main_v36, w4_main_v1, w4_main_v3] <;> rfl)

theorem w5_main_v47 (c : Dev nD) : W5 m ρ c (Proc.devRef .tc main_v47) = biasRow128 (m ((c : Thread nD τ).loc main_arg9)) := by
  show StableHlo.after hostOps2 (W4 m ρ c) (Proc.devRef .tc main_v47) = _
  after_results <;> (rw [w4_main_arg9] <;> rfl)

/-! ## After region 2: the result -/

/-- THE KERNEL'S RESULT: the last boundary's contents of the result buffer is the network of the launch arrays. -/
theorem w6_main_v48 (c : Dev nD) : W6 m ρ c (Proc.devRef .tc main_v48) = OUT m c := by
  refine (W6_arr m ρ c 7).trans ((Region2.final (V5 m ρ) c).trans ?_)
  show layerProj (W5 m ρ c (Proc.devRef .tc main_v36)) (W5 m ρ c (Proc.devRef .tc main_v46)) (W5 m ρ c (Proc.devRef .tc main_v12))
    (W5 m ρ c (Proc.devRef .tc main_arg8)) (W5 m ρ c (Proc.devRef .tc main_v47)) (W5 m ρ c (Proc.devRef .tc main_arg10))
    (W5 m ρ c (Proc.devRef .tc main_arg11)) = _
  rw [w5_main_v36, w5_main_v46, w5_main_v12, w5_main_arg8, w5_main_v47, w5_main_arg10, w5_main_arg11]
  rfl

end Cert.Sage

end
-- ==== Proof.Mean.lean ====
/-
  The mean over a node's incoming edges, the kernel's way and the reference's. The kernel multiplies a node's neighbour
  sum by the reciprocal `1 / d` of its clamped in-degree `d = max deg 1`; the reference divides the sum by `d`. Since
  `d ≥ 1` it is never zero, and for a divisor that is not zero `s / d = s * (1 / d)` on all the extended reals
  (Layer.lean), whatever `s` and `d` are otherwise: no finiteness is asked.
-/
import proofs.«111636_j33122787786831_1_alg».proof.Proof.Gen.KernelIdeal
import proofs.«111636_j33122787786831_1_alg».proof.Proof.Net

noncomputable section

namespace Cert.Sage

open Idealize.ShloMosaic Idealize.ShloMosaic.ValueIdx Cert.KernelIdeal
open Cert.KernelIdeal.Facts₀ Cert.KernelIdeal.Facts

/-- The float word of one denotes the number one. -/
theorem one_word : Ideal.ofBits .f32 0x3F800000#32 = 1 := by simp [Ideal.ofBits, Ideal.ieee, -EReal.coe_mul]; norm_num

/-- A splat of the word of one over the node axis, read at a node, is one. -/
theorem ones_apply (n : Fin 50000) :
    broadcastInDim S50000 ![] bcast_S_S50000 (constant (F := Ideal) S_ .f32 0x3F800000#32) (ix1 n) = 1 := by
  rw [broadcastInDim_apply _ bcast_S_S50000 _ (ix1 n) (fun a => a.elim0) (fun a => a.elim0)]
  exact one_word

/-- A clamped in-degree is not zero. -/
theorem degClamped_ne_zero (d : (⟨S800000, .i32⟩ : BufTy).Contents (Elt Ideal)) (n : Fin 50000) :
    degClamped d (ix1 n) ≠ 0 := by
  unfold degClamped
  rw [maximumf_apply, ones_apply]
  exact max_one_ne_zero _

/-- The reciprocal column is the quotient of a splat of one by the clamped in-degrees, laid out as a column. -/
theorem invDeg_unfold (d : (⟨S800000, .i32⟩ : BufTy).Contents (Elt Ideal)) (n : Fin 50000) :
    invDeg d (ix2 n 0) = shapeCast S50000x1 (Host.divf (F := Ideal) (φ := .f32) (broadcastInDim S50000 ![] bcast_S_S50000 (constant (F := Ideal) S_ .f32 0x3F800000#32)) (degClamped d))
      shapeCasts_S50000_S50000x1 (ix2 n 0) := rfl

/-- The host's quotient of two vectors, read at a node, is the quotient of their entries. -/
theorem divf_apply (a b : FVec Ideal S50000 .f32) (n : Fin 50000) :
    Host.divf (F := Ideal) (φ := .f32) a b (ix1 n) = Ideal.div (a (ix1 n)) (b (ix1 n)) := rfl

/-- The reciprocal column at node `n` is one over that node's clamped in-degree. -/
theorem invDeg_apply (d : (⟨S800000, .i32⟩ : BufTy).Contents (Elt Ideal)) (n : Fin 50000) :
    invDeg d (ix2 n 0) = Ideal.div 1 (degClamped d (ix1 n)) := by
  have h : invDeg d (ix2 n 0) = Ideal.div ((broadcastInDim S50000 ![] bcast_S_S50000 (constant (F := Ideal) S_ .f32 0x3F800000#32)) (ix1 n)) (degClamped d (ix1 n)) :=
    (invDeg_unfold d n).trans ((column_apply (a := 50000) _ shapeCasts_S50000_S50000x1 n 0).trans (divf_apply _ _ n))
  rw [h, ones_apply]

/-- THE MEAN: a neighbour sum divided by the clamped in-degree is the sum times the reciprocal column's entry. -/
theorem mean_eq (d : (⟨S800000, .i32⟩ : BufTy).Contents (Elt Ideal)) (s : EReal) (n : Fin 50000) :
    Ideal.div s (degClamped d (ix1 n)) = s * invDeg d (ix2 n 0) := by
  rw [invDeg_apply]
  exact div_eq_mul_one_div s _ (degClamped_ne_zero d n)

end Cert.Sage

end
-- ==== Proof.RefLayers.lean ====
/-
  The reference, stage by stage, is the network of Net.lean. Its gathers and scatter-adds are the shared irregular
  functions of each layer's input; its mean divides a neighbour sum by the clamped in-degree, which is the sum times the
  reciprocal column's entry (Mean.lean); its two contractions per layer run over the transposed weights, entry `(n, j)`
  being `∑ k, left (n, k) * W (j, k)`; its bias is spread down the rows; `relu` is the maximum with a splat of zero. So
  each layer's result is the layer function of Layer.lean of the previous layer's result, entry by entry.
-/
import proofs.«111636_j33122787786831_1_alg».proof.Proof.Gen.ReferenceIdeal.Read
import proofs.«111636_j33122787786831_1_alg».proof.Proof.Mean
import Idealize.ShloMosaic.Lib.ValueLayout

set_option maxRecDepth 16384

noncomputable section

open scoped BigOperators

namespace Cert.Sage.Ref

open Idealize.ShloMosaic Idealize.ShloMosaic.ValueIdx Cert.MatProd Cert.Sage
open Cert.ReferenceIdeal Cert.ReferenceIdeal.Read

/-! ## Layer 1 -/

/-- The reference's neighbour sums of layer 1 are the shared function of the layer's input. -/
theorem agg_1 (x0 : (⟨S50000x128, .f32⟩ : BufTy).Contents (Elt Ideal)) (x1 : (⟨S2x800000, .i32⟩ : BufTy).Contents (Elt Ideal)) : val_main_v13 (F := Ideal) x0 x1 = agg128 (srcIdx x1) (dstIdx x1) (x0) := rfl

/-- The reference's mean at `(n, k)`: the neighbour sum times the reciprocal column's entry. -/
theorem mean_1 (x0 : (⟨S50000x128, .f32⟩ : BufTy).Contents (Elt Ideal)) (x1 : (⟨S2x800000, .i32⟩ : BufTy).Contents (Elt Ideal)) (n : Fin 50000) (k : Fin 128) :
    val_main_v22 (F := Ideal) x0 x1 (ix2 n k) = agg128 (srcIdx x1) (dstIdx x1) (x0) (ix2 n k) * invDeg (dstIdx x1) (ix2 n 0) := by
  rw [val_main_v22_apply, val_main_v21_apply, val_main_v20_apply]
  have e : idx_main_v20 (idx_main_v21 (ix2 n k)) = ix1 n := funext fun a => Fin.ext (by match a with | ⟨0, _⟩ => rfl)
  rw [e]
  exact mean_eq (dstIdx x1) _ n

/-- The reference's layer 1 before what follows the two products and the bias, at `(n, j)`. -/
theorem conv_1 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (n : Fin 50000) (j : Fin 256) :
    val_main_v30 (F := Ideal) x0 x1 x2 x3 x4 (ix2 n j) = conv (x0) (agg128 (srcIdx x1) (dstIdx x1) (x0)) (invDeg (dstIdx x1)) x2 (biasRow256 x3) x4 (ix2 n j) := by
  rw [val_main_v30_apply, val_main_v27_apply, val_main_v24_apply, val_main_v26_apply, val_main_v25_apply, val_main_v29_apply]
  show (∑ k : Fin 128, _) + _ + (∑ k : Fin 128, _)
    = (∑ k : Fin 128, (agg128 (srcIdx x1) (dstIdx x1) (x0) (ix2 n k) * invDeg (dstIdx x1) (ix2 n 0)) * x2 (ix2 j k)) + biasRow256 x3 (ix2 0 j)
      + ∑ k : Fin 128, (x0) (ix2 n k) * x4 (ix2 j k)
  refine congrArg₂ (· + ·) (congrArg₂ (· + ·) (Finset.sum_congr rfl fun k _ => ?_) ?_) (Finset.sum_congr rfl fun k _ => ?_)
  · have e1 : lidx_main_v24 (ix2 n j) k = ix2 n k := funext fun a => Fin.ext (by match a with | ⟨0, _⟩ => rfl | ⟨1, _⟩ => rfl)
    have e2 : ridx_main_v24 (ix2 n j) k = ix2 k j := funext fun a => Fin.ext (by match a with | ⟨0, _⟩ => rfl | ⟨1, _⟩ => rfl)
    have e3 : idx_main_v23 (ix2 k j) = ix2 j k := funext fun a => Fin.ext (by match a with | ⟨0, _⟩ => rfl | ⟨1, _⟩ => rfl)
    rw [e1, e2, val_main_v23_apply, e3, mean_1]
  · have e : idx_main_v25 (idx_main_v26 (ix2 n j)) = ix1 j := funext fun a => Fin.ext (by match a with | ⟨0, _⟩ => rfl)
    rw [e]
    exact (shapeCast_a_1a_apply x3 _ 0 j).symm
  · have e1 : lidx_main_v29 (ix2 n j) k = ix2 n k := funext fun a => Fin.ext (by match a with | ⟨0, _⟩ => rfl | ⟨1, _⟩ => rfl)
    have e2 : ridx_main_v29 (ix2 n j) k = ix2 k j := funext fun a => Fin.ext (by match a with | ⟨0, _⟩ => rfl | ⟨1, _⟩ => rfl)
    have e3 : idx_main_v28 (ix2 k j) = ix2 j k := funext fun a => Fin.ext (by match a with | ⟨0, _⟩ => rfl | ⟨1, _⟩ => rfl)
    rw [e1, e2, val_main_v28_apply, e3]

/-- THE FIRST HIDDEN LAYER of the reference is the network's. -/
theorem hidden1_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) : val_main_v31 (F := Ideal) x0 x1 x2 x3 x4 = hidden1 x0 x1 x2 x3 x4 := by
  funext i
  obtain ⟨n, j, rfl⟩ : ∃ (n : Fin 50000) (j : Fin 256), i = ix2 n j := ⟨i 0, i 1, eq_ix2 i⟩
  rw [val_main_v31_apply, val_main_call0_v0_apply, val_main_call0_cst_apply, conv_1]
  rfl

/-! ## Layer 2 -/

/-- The reference's neighbour sums of layer 2 are the shared function of the layer's input. -/
theorem agg_2 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) : val_main_v41 (F := Ideal) x0 x1 x2 x3 x4 = agg256 (srcIdx x1) (dstIdx x1) (val_main_v31 (F := Ideal) x0 x1 x2 x3 x4) := rfl

/-- The reference's mean at `(n, k)`: the neighbour sum times the reciprocal column's entry. -/
theorem mean_2 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (n : Fin 50000) (k : Fin 256) :
    val_main_v50 (F := Ideal) x0 x1 x2 x3 x4 (ix2 n k) = agg256 (srcIdx x1) (dstIdx x1) (val_main_v31 (F := Ideal) x0 x1 x2 x3 x4) (ix2 n k) * invDeg (dstIdx x1) (ix2 n 0) := by
  rw [val_main_v50_apply, val_main_v49_apply, val_main_v48_apply]
  have e : idx_main_v48 (idx_main_v49 (ix2 n k)) = ix1 n := funext fun a => Fin.ext (by match a with | ⟨0, _⟩ => rfl)
  rw [e]
  exact mean_eq (dstIdx x1) _ n

/-- The reference's layer 2 before what follows the two products and the bias, at `(n, j)`. -/
theorem conv_2 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (n : Fin 50000) (j : Fin 256) :
    val_main_v58 (F := Ideal) x0 x1 x2 x3 x4 x5 x6 x7 (ix2 n j) = conv (val_main_v31 (F := Ideal) x0 x1 x2 x3 x4) (agg256 (srcIdx x1) (dstIdx x1) (val_main_v31 (F := Ideal) x0 x1 x2 x3 x4)) (invDeg (dstIdx x1)) x5 (biasRow256 x6) x7 (ix2 n j) := by
  rw [val_main_v58_apply, val_main_v55_apply, val_main_v52_apply, val_main_v54_apply, val_main_v53_apply, val_main_v57_apply]
  show (∑ k : Fin 256, _) + _ + (∑ k : Fin 256, _)
    = (∑ k : Fin 256, (agg256 (srcIdx x1) (dstIdx x1) (val_main_v31 (F := Ideal) x0 x1 x2 x3 x4) (ix2 n k) * invDeg (dstIdx x1) (ix2 n 0)) * x5 (ix2 j k)) + biasRow256 x6 (ix2 0 j)
      + ∑ k : Fin 256, (val_main_v31 (F := Ideal) x0 x1 x2 x3 x4) (ix2 n k) * x7 (ix2 j k)
  refine congrArg₂ (· + ·) (congrArg₂ (· + ·) (Finset.sum_congr rfl fun k _ => ?_) ?_) (Finset.sum_congr rfl fun k _ => ?_)
  · have e1 : lidx_main_v52 (ix2 n j) k = ix2 n k := funext fun a => Fin.ext (by match a with | ⟨0, _⟩ => rfl | ⟨1, _⟩ => rfl)
    have e2 : ridx_main_v52 (ix2 n j) k = ix2 k j := funext fun a => Fin.ext (by match a with | ⟨0, _⟩ => rfl | ⟨1, _⟩ => rfl)
    have e3 : idx_main_v51 (ix2 k j) = ix2 j k := funext fun a => Fin.ext (by match a with | ⟨0, _⟩ => rfl | ⟨1, _⟩ => rfl)
    rw [e1, e2, val_main_v51_apply, e3, mean_2]
  · have e : idx_main_v53 (idx_main_v54 (ix2 n j)) = ix1 j := funext fun a => Fin.ext (by match a with | ⟨0, _⟩ => rfl)
    rw [e]
    exact (shapeCast_a_1a_apply x6 _ 0 j).symm
  · have e1 : lidx_main_v57 (ix2 n j) k = ix2 n k := funext fun a => Fin.ext (by match a with | ⟨0, _⟩ => rfl | ⟨1, _⟩ => rfl)
    have e2 : ridx_main_v57 (ix2 n j) k = ix2 k j := funext fun a => Fin.ext (by match a with | ⟨0, _⟩ => rfl | ⟨1, _⟩ => rfl)
    have e3 : idx_main_v56 (ix2 k j) = ix2 j k := funext fun a => Fin.ext (by match a with | ⟨0, _⟩ => rfl | ⟨1, _⟩ => rfl)
    rw [e1, e2, val_main_v56_apply, e3]

/-- THE SECOND HIDDEN LAYER of the reference is the network's, over the first. -/
theorem hidden2_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) :
    val_main_v60 (F := Ideal) x0 x1 x2 x3 x4 x5 x6 x7 = hidden2 (val_main_v31 (F := Ideal) x0 x1 x2 x3 x4) x1 x5 x6 x7 := by
  funext i
  obtain ⟨n, j, rfl⟩ : ∃ (n : Fin 50000) (j : Fin 256), i = ix2 n j := ⟨i 0, i 1, eq_ix2 i⟩
  rw [val_main_v60_apply, val_main_call1_v0_apply, val_main_call1_cst_apply, val_main_v59_apply, conv_2]
  rfl

/-! ## Layer 3 -/

/-- The reference's neighbour sums of layer 3 are the shared function of the layer's input. -/
theorem agg_3 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) : val_main_v72 (F := Ideal) x0 x1 x2 x3 x4 x5 x6 x7 = agg256 (srcIdx x1) (dstIdx x1) (val_main_v60 (F := Ideal) x0 x1 x2 x3 x4 x5 x6 x7) := rfl

/-- The reference's mean at `(n, k)`: the neighbour sum times the reciprocal column's entry. -/
theorem mean_3 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (n : Fin 50000) (k : Fin 256) :
    val_main_v81 (F := Ideal) x0 x1 x2 x3 x4 x5 x6 x7 (ix2 n k) = agg256 (srcIdx x1) (dstIdx x1) (val_main_v60 (F := Ideal) x0 x1 x2 x3 x4 x5 x6 x7) (ix2 n k) * invDeg (dstIdx x1) (ix2 n 0) := by
  rw [val_main_v81_apply, val_main_v80_apply, val_main_v79_apply]
  have e : idx_main_v79 (idx_main_v80 (ix2 n k)) = ix1 n := funext fun a => Fin.ext (by match a with | ⟨0, _⟩ => rfl)
  rw [e]
  exact mean_eq (dstIdx x1) _ n

/-- The reference's layer 3 before what follows the two products and the bias, at `(n, j)`. -/
theorem conv_3 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S128x256, .f32⟩ : BufTy).Contents (Elt Ideal)) (x9 : (⟨S128, .f32⟩ : BufTy).Contents (Elt Ideal)) (x10 : (⟨S128x256, .f32⟩ : BufTy).Contents (Elt Ideal)) (n : Fin 50000) (j : Fin 128) :
    val_main_v89 (F := Ideal) x0 x1 x2 x3 x4 x5 x6 x7 x8 x9 x10 (ix2 n j) = conv (val_main_v60 (F := Ideal) x0 x1 x2 x3 x4 x5 x6 x7) (agg256 (srcIdx x1) (dstIdx x1) (val_main_v60 (F := Ideal) x0 x1 x2 x3 x4 x5 x6 x7)) (invDeg (dstIdx x1)) x8 (biasRow128 x9) x10 (ix2 n j) := by
  rw [val_main_v89_apply, val_main_v86_apply, val_main_v83_apply, val_main_v85_apply, val_main_v84_apply, val_main_v88_apply]
  show (∑ k : Fin 256, _) + _ + (∑ k : Fin 256, _)
    = (∑ k : Fin 256, (agg256 (srcIdx x1) (dstIdx x1) (val_main_v60 (F := Ideal) x0 x1 x2 x3 x4 x5 x6 x7) (ix2 n k) * invDeg (dstIdx x1) (ix2 n 0)) * x8 (ix2 j k)) + biasRow128 x9 (ix2 0 j)
      + ∑ k : Fin 256, (val_main_v60 (F := Ideal) x0 x1 x2 x3 x4 x5 x6 x7) (ix2 n k) * x10 (ix2 j k)
  refine congrArg₂ (· + ·) (congrArg₂ (· + ·) (Finset.sum_congr rfl fun k _ => ?_) ?_) (Finset.sum_congr rfl fun k _ => ?_)
  · have e1 : lidx_main_v83 (ix2 n j) k = ix2 n k := funext fun a => Fin.ext (by match a with | ⟨0, _⟩ => rfl | ⟨1, _⟩ => rfl)
    have e2 : ridx_main_v83 (ix2 n j) k = ix2 k j := funext fun a => Fin.ext (by match a with | ⟨0, _⟩ => rfl | ⟨1, _⟩ => rfl)
    have e3 : idx_main_v82 (ix2 k j) = ix2 j k := funext fun a => Fin.ext (by match a with | ⟨0, _⟩ => rfl | ⟨1, _⟩ => rfl)
    rw [e1, e2, val_main_v82_apply, e3, mean_3]
  · have e : idx_main_v84 (idx_main_v85 (ix2 n j)) = ix1 j := funext fun a => Fin.ext (by match a with | ⟨0, _⟩ => rfl)
    rw [e]
    exact (shapeCast_a_1a_apply x9 _ 0 j).symm
  · have e1 : lidx_main_v88 (ix2 n j) k = ix2 n k := funext fun a => Fin.ext (by match a with | ⟨0, _⟩ => rfl | ⟨1, _⟩ => rfl)
    have e2 : ridx_main_v88 (ix2 n j) k = ix2 k j := funext fun a => Fin.ext (by match a with | ⟨0, _⟩ => rfl | ⟨1, _⟩ => rfl)
    have e3 : idx_main_v87 (ix2 k j) = ix2 j k := funext fun a => Fin.ext (by match a with | ⟨0, _⟩ => rfl | ⟨1, _⟩ => rfl)
    rw [e1, e2, val_main_v87_apply, e3]

/-- The reference's projection of the second hidden layer at `(n, j)`. -/
theorem proj_3 (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x11 : (⟨S128x256, .f32⟩ : BufTy).Contents (Elt Ideal)) (n : Fin 50000) (j : Fin 128) :
    val_main_v62 (F := Ideal) x0 x1 x2 x3 x4 x5 x6 x7 x11 (ix2 n j) = Cert.MatProd.prod (val_main_v60 (F := Ideal) x0 x1 x2 x3 x4 x5 x6 x7) (tr x11) (ix2 n j) := by
  rw [val_main_v62_apply]
  show (∑ k : Fin 256, _) = ∑ k : Fin 256, (val_main_v60 (F := Ideal) x0 x1 x2 x3 x4 x5 x6 x7) (ix2 n k) * x11 (ix2 j k)
  refine Finset.sum_congr rfl fun k _ => ?_
  have e1 : lidx_main_v62 (ix2 n j) k = ix2 n k := funext fun a => Fin.ext (by match a with | ⟨0, _⟩ => rfl | ⟨1, _⟩ => rfl)
  have e2 : ridx_main_v62 (ix2 n j) k = ix2 k j := funext fun a => Fin.ext (by match a with | ⟨0, _⟩ => rfl | ⟨1, _⟩ => rfl)
  have e3 : idx_main_v61 (ix2 k j) = ix2 j k := funext fun a => Fin.ext (by match a with | ⟨0, _⟩ => rfl | ⟨1, _⟩ => rfl)
  rw [e1, e2, val_main_v61_apply, e3]

/-- THE OUTPUT LAYER of the reference is the network's, over the second hidden layer. -/
theorem output_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S128x256, .f32⟩ : BufTy).Contents (Elt Ideal)) (x9 : (⟨S128, .f32⟩ : BufTy).Contents (Elt Ideal)) (x10 : (⟨S128x256, .f32⟩ : BufTy).Contents (Elt Ideal)) (x11 : (⟨S128x256, .f32⟩ : BufTy).Contents (Elt Ideal)) :
    val_main_v90 (F := Ideal) x0 x1 x2 x3 x4 x5 x6 x7 x8 x9 x10 x11 = output (val_main_v60 (F := Ideal) x0 x1 x2 x3 x4 x5 x6 x7) x1 x8 x9 x10 x11 := by
  funext i
  obtain ⟨n, j, rfl⟩ : ∃ (n : Fin 50000) (j : Fin 128), i = ix2 n j := ⟨i 0, i 1, eq_ix2 i⟩
  rw [val_main_v90_apply, conv_3, proj_3]
  rfl

end Cert.Sage.Ref

end
-- ==== Proof.lean ====
/-
  A three-layer graph network with mean aggregation: a kernel that tiles the node axis against the plain array program.

  Both programs compute, for 50000 nodes and 800000 edges, three graph-convolution layers. A layer takes the node features
  `x`, adds up at every node the feature rows of its incoming edges' source nodes (`S`), takes the mean over the incoming
  edges, and returns `mean · Wlᵀ + b + x · Wrᵀ`; the first layer is then clamped below at zero, the second has its input
  added back before the clamp, the third has a projection `x · Wpᵀ` of its input added and no clamp. The gathers and
  scatter-adds of the irregular part are the same host operations in both programs.

  The kernel differs from the reference in two ways, and neither changes the extended real it computes:
  * the reference DIVIDES the neighbour sum by the clamped in-degree `d = max deg 1`, the kernel MULTIPLIES it by a column
    of reciprocals `1 / d` computed once. Since `d ≥ 1` is never zero, `s / d = s * (1 / d)` on all the extended reals,
    infinities included (Layer.lean, Mean.lean): the inputs' finiteness is never used;
  * the kernel computes each layer 2000 node rows at a time (25 grid points), rounding the operands of its products to a
    shorter float format first. A change of format is the identity over the extended reals, and a row of a layer's result
    depends on that row of the node arrays only, so the blocks the grid points write are the rows of ONE layer function of
    the whole arrays (Body1–3.lean, Blocks1–3.lean).

  So both results are the same function of the twelve argument arrays (Net.lean): the kernel's by folding its three
  regions and the host operations between them from the launch memory (KernelRun.lean, Fold1–3.lean), the reference's stage
  by stage (RefLayers.lean). The three frames are the programs' runs with the result dropped; the idealization rewrote no
  operation, so there is nothing to preserve.
-/
import proofs.«111636_j33122787786831_1_alg».proof.Defs
import proofs.«111636_j33122787786831_1_alg».proof.Proof.Gen.Kernel
import proofs.«111636_j33122787786831_1_alg».proof.Proof.Gen.KernelIdeal
import proofs.«111636_j33122787786831_1_alg».proof.Proof.Gen.ReferenceIdeal
import proofs.«111636_j33122787786831_1_alg».proof.Proof.Gen.Pre_finite_inputs
import proofs.«111636_j33122787786831_1_alg».proof.Proof.Gen.ReferenceIdeal.Run
import proofs.«111636_j33122787786831_1_alg».proof.Proof.Gen.ReferenceIdeal.Read
import proofs.«111636_j33122787786831_1_alg».proof.Proof.KernelFrameP
import proofs.«111636_j33122787786831_1_alg».proof.Proof.KernelIdealFrameP
import proofs.«111636_j33122787786831_1_alg».proof.Proof.KernelRun
import proofs.«111636_j33122787786831_1_alg».proof.Proof.Fold3
import proofs.«111636_j33122787786831_1_alg».proof.Proof.RefLayers
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.GenP.frame m ρ

/-- The idealized kernel runs and leaves its arguments as launched. -/
theorem frame_kernelIdeal : Cert.frame_KernelIdeal := fun m ρ _ => Cert.KernelIdeal.GenP.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's result term is the network of its arguments: the three layers, each over the one before. -/
theorem reference_is_network (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v90 m' c
      = Cert.Sage.output (Cert.Sage.hidden2 (Cert.Sage.hidden1
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11)) := by
  rw [Cert.ReferenceIdeal.Read.val_main_v90_eq, Cert.Sage.Ref.output_eq, Cert.Sage.Ref.hidden2_eq, Cert.Sage.Ref.hidden1_eq]

/-- From memories agreeing on the arguments both idealized programs run and end with the same result: the network of
    the arguments. -/
theorem algebraic : Cert.algebraic_KernelIdeal_ReferenceIdeal := by
  intro m ρ m' ρ' _ hagree
  refine ⟨fun c => Cert.Sage.OUT m c, ?_, ?_⟩
  · exact (θ_run Cert.KernelIdeal.defs _ _).mono
      (fun r h c => ⟨(h c).1.trans (Cert.Sage.w6_main_v48 m ρ c), (h c).2⟩) (Cert.Sage.run_named m ρ)
  · refine (θ_run Cert.ReferenceIdeal.defs _ _).mono (fun r h c => ⟨(h c).1.trans ?_, (h c).2⟩)
      (Cert.ReferenceIdeal.Value.run (F := Ideal) m' ρ')
    rw [reference_is_network m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
